-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S2048x81920 : S_.BroadcastsInDim S2048x81920 (![] : Fin 0 → Fin S2048x81920.rank)
  reducesTo_S2048x81920_S_d0_1 : S2048x81920.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S4x81920 : S_.BroadcastsInDim S4x81920 (![] : Fin 0 → Fin S4x81920.rank)
  reducesTo_S4x81920_S_d0_1 : S4x81920.ReducesTo [0, 1] S_
  bcast_S_S4 : S_.BroadcastsInDim S4 (![] : Fin 0 → Fin S4.rank)
  reducesTo_S4_S_d0 : S4.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S8x8 .f32) (main_arg8 : FVec F S8 .f32) (main_arg9 : FVec F S1x8 .f32) (main_arg10 : FVec F S1 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S1x8 .f32 := Host.absf main_arg9
  let main_cst_16 : FVec F S_ .f32 := constant S_ .f32 0x7F800000#32
  let main_v45 : FVec F S1x8 .f32 := broadcastInDim S1x8 ![] bcast_S_S1x8 main_cst_16
  let main_v46 : IVec S1x8 1 := cmpf .olt main_v44 main_v45
  let main_c_17 : IVec S_ 1 := constantI S_ 1 1#1
  let main_v47 : IVec S_ 1 := (fun x v => Host.reduce IntOp.andi x v reducesTo_S1x8_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S2048x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  let main_v24 : FVec F S4x81920 .f32 := Host.absf main_arg5
  let main_cst_8 : FVec F S_ .f32 := constant S_ .f32 0x7F800000#32
  let main_v25 : FVec F S4x81920 .f32 := broadcastInDim S4x81920 ![] bcast_S_S4x81920 main_cst_8
  let main_v26 : IVec S4x81920 1 := cmpf .olt main_v24 main_v25
  let main_c_9 : IVec S_ 1 := constantI S_ 1 1#1
  let main_v27 : IVec S_ 1 := (fun x v => Host.reduce IntOp.andi x v reducesTo_S4x81920_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x81920 .f32) (main_arg1 : FVec F S2048x81920 .f32) (main_arg2 : FVec F S2048x1 .f32) (main_arg3 : FVec F S2048x1 .f32) (main_arg4 : FVec F S2048x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) : IVec S_ 1 :=
  let main_v0 : FVec F S2048x81920 .f32 := Host.absf main_arg0
  let main_cst : FVec F S_ .f32 := constant S_ .f32 0x7F800000#32
  let main_v1 : FVec F S2048x81920 .f32 := broadcastInDim S2048x81920 ![] bcast_S_S2048x81920 main_cst
  let main_v2 : IVec S2048x81920 1 := cmpf .olt main_v0 main_v1
  let main_c : IVec S_ 1 := constantI S_ 1 1#1
  let main_v3 : IVec S_ 1 := (fun x v => Host.reduce IntOp.andi x v reducesTo_S2048x81920_S_d0_1 h_S_) main_v2 main_c
  let main_v4 : FVec F S2048x81920 .f32 := Host.absf main_arg1
  let main_cst_0 : FVec F S_ .f32 := constant S_ .f32 0x7F800000#32
  let main_v5 : FVec F S2048x81920 .f32 := broadcastInDim S2048x81920 ![] bcast_S_S2048x81920 main_cst_0
  let main_v6 : IVec S2048x81920 1 := cmpf .olt main_v4 main_v5
  let main_c_1 : IVec S_ 1 := constantI S_ 1 1#1
  let main_v7 : IVec S_ 1 := (fun x v => Host.reduce IntOp.andi x v reducesTo_S2048x81920_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_arg5 main_arg6 main_arg7 main_arg8 main_arg9 main_arg10 main_v13 main_v16
-- ==== Kernel.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S81920x4 : Shape := ⟨2, ![81920, 4]⟩
abbrev S8x4 : Shape := ⟨2, ![8, 4]⟩
abbrev S1x4 : Shape := ⟨2, ![1, 4]⟩
abbrev S1x1 : Shape := ⟨2, ![1, 1]⟩
abbrev S256x4096 : Shape := ⟨2, ![256, 4096]⟩
abbrev S4096x4 : Shape := ⟨2, ![4096, 4]⟩
abbrev S256x1 : Shape := ⟨2, ![256, 1]⟩
abbrev S256x4 : Shape := ⟨2, ![256, 4]⟩
abbrev S4x8 : Shape := ⟨2, ![4, 8]⟩
abbrev S256x8 : Shape := ⟨2, ![256, 8]⟩
abbrev S8x1 : Shape := ⟨2, ![8, 1]⟩

abbrev nBuf : Space → Nat
  | .hbm => 18
  | .vmem => 22
  | .smem => 0
  | _ => 0

abbrev bufTy : (tb : Table) → Fin (tcTables nBuf tb) → BufTy
  | .hbm, ⟨0, _⟩ => ⟨S2048x81920, .f32⟩
  | .hbm, ⟨1, _⟩ => ⟨S2048x81920, .f32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S81920x4, .f32⟩
  | .hbm, ⟨12, _⟩ => ⟨S8x4, .f32⟩
  | .hbm, ⟨13, _⟩ => ⟨S8x4, .f32⟩
  | .hbm, ⟨14, _⟩ => ⟨S1x4, .f32⟩
  | .hbm, ⟨15, _⟩ => ⟨S1x8, .f32⟩
  | .hbm, ⟨16, _⟩ => ⟨S1x1, .f32⟩
  | .hbm, ⟨17, _⟩ => ⟨S2048x1, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x4, .f32⟩
  | .local _ .vmem, ⟨5, _⟩ => ⟨S4096x4, .f32⟩
  | .local _ .vmem, ⟨6, _⟩ => ⟨S1x4, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S8x4, .f32⟩
  | .local _ .vmem, ⟨14, _⟩ => ⟨S8x4, .f32⟩
  | .local _ .vmem, ⟨15, _⟩ => ⟨S1x8, .f32⟩
  | .local _ .vmem, ⟨16, _⟩ => ⟨S1x8, .f32⟩
  | .local _ .vmem, ⟨17, _⟩ => ⟨S1x1, .f32⟩
  | .local _ .vmem, ⟨18, _⟩ => ⟨S256x1, .f32⟩
  | .local _ .vmem, ⟨19, _⟩ => ⟨S256x1, .f32⟩
  | .local _ .vmem, ⟨20, _⟩ => ⟨S256x4, .f32⟩
  | .local _ .vmem, ⟨21, _⟩ => ⟨S256x4, .f32⟩
  | _, _ => ⟨S2048x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 20], ![false, false]⟩

def k0_cond2 (i : grid0.Coords) : BitVec 1 :=
  let arg1 : BitVec 32 := BitVec.ofNat 32 (i 1).val
  let c19_i32 : BitVec 32 := 19#32
  let v22 : BitVec 1 := Scalar.cmpi .eq arg1 c19_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  transposes_S4x81920_S81920x4_1_0 : S4x81920.Transposes [1, 0] S81920x4
  slices_S8x8_S8x4_0_0 : S8x8.Slices ![0, 0] S8x4
  slices_S8x8_S8x4_0_4 : S8x8.Slices ![0, 4] S8x4
  shapeCasts_S4_S1x4 : S4.ShapeCasts S1x4
  shapeCasts_S8_S1x8 : S8.ShapeCasts S1x8
  shapeCasts_S1_S1x1 : S1.ShapeCasts S1x1
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S256x4 : S1x4.Broadcasts S256x4
  inb_S256x1_S256x1_0_0 : ∀ a, (![0, 0] : Fin 2 → Nat) a + S256x1.size a ≤ S256x1.size a
  h_S256x1 : 0 < S256x1.numel
  broadcasts_S256x1_S256x4 : S256x1.Broadcasts S256x4
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S1x8_S1x8_0_0 : ∀ a, (![0, 0] : Fin 2 → Nat) a + S1x8.size a ≤ S1x8.size a
  h_S1x8 : 0 < S1x8.numel
  shapeCasts_S1x8_S1x8 : S1x8.ShapeCasts S1x8
  transposes_S8x4_p1_0_S4x8 : S8x4.Transposes [1, 0] S4x8
  broadcasts_S1x8_S256x8 : S1x8.Broadcasts S256x8
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x8_p1_0_S8x1 : S1x8.Transposes [1, 0] S8x1
  broadcasts_S1x1_S256x1 : S1x1.Broadcasts S256x1
  dot_S256x4096_S4096x4_S256x4_1_0_0_1_n_n_wf : DotDims.WF S256x4096 S4096x4 S256x4 [1] [0] [0] [1] [] []
  dot_S256x4_S4x8_S256x8_1_0_0_1_n_n_wf : DotDims.WF S256x4 S4x8 S256x8 [1] [0] [0] [1] [] []
  dot_S256x8_S8x1_S256x1_1_0_0_1_n_n_wf : DotDims.WF S256x8 S8x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x81920.size a
  hwx0_0 : ∀ i : grid0.Coords, EltTy.bits .f32 = 32 ∨ (Rect.block (s := S2048x81920) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x81920.size a
  hwx0_1 : ∀ i : grid0.Coords, EltTy.bits .f32 = 32 ∨ (Rect.block (s := S2048x81920) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S81920x4.size a
  hwx0_2 : ∀ i : grid0.Coords, EltTy.bits .f32 = 32 ∨ (Rect.block (s := S81920x4) S4096x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4.size a ≤ S1x4.size a
  hwx0_3 : ∀ i : grid0.Coords, EltTy.bits .f32 = 32 ∨ (Rect.block (s := S1x4) S1x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S2048x1.size a
  hwx0_6 : ∀ i : grid0.Coords, EltTy.bits .f32 = 32 ∨ (Rect.block (s := S2048x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x4.size a ≤ S8x4.size a
  hwx0_7 : ∀ i : grid0.Coords, EltTy.bits .f32 = 32 ∨ (Rect.block (s := S8x4) S8x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x4.size a ≤ S8x4.size a
  hwx0_8 : ∀ i : grid0.Coords, EltTy.bits .f32 = 32 ∨ (Rect.block (s := S8x4) S8x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S2048x1.size a
  hwx0_12 : ∀ i : grid0.Coords, EltTy.bits .f32 = 32 ∨ (Rect.block (s := S2048x1) S256x1.size (cc0_transform_12 i) (hinb0_12 i)).WholeWords (EltTy.packing .f32)

variable [Facts₀]

def dot_S256x4096_S4096x4_S256x4_1_0_0_1_n_n : DotDims S256x4096 S4096x4 S256x4 where
  lhsContracting := [1]
  rhsContracting := [0]
  lhsNonContracting := [0]
  rhsNonContracting := [1]
  lhsBatch := []
  rhsBatch := []
  wf := dot_S256x4096_S4096x4_S256x4_1_0_0_1_n_n_wf
def dot_S256x4_S4x8_S256x8_1_0_0_1_n_n : DotDims S256x4 S4x8 S256x8 where
  lhsContracting := [1]
  rhsContracting := [0]
  lhsNonContracting := [0]
  rhsNonContracting := [1]
  lhsBatch := []
  rhsBatch := []
  wf := dot_S256x4_S4x8_S256x8_1_0_0_1_n_n_wf
def dot_S256x8_S8x1_S256x1_1_0_0_1_n_n : DotDims S256x8 S8x1 S256x1 where
  lhsContracting := [1]
  rhsContracting := [0]
  lhsNonContracting := [0]
  rhsNonContracting := [1]
  lhsBatch := []
  rhsBatch := []
  wf := dot_S256x8_S8x1_S256x1_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S8x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S256x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S81920x4 : Shape := ⟨2, ![81920, 4]⟩
abbrev S2048x4 : Shape := ⟨2, ![2048, 4]⟩
abbrev S1x4 : Shape := ⟨2, ![1, 4]⟩
abbrev S2048x8 : Shape := ⟨2, ![2048, 8]⟩
abbrev S_ : Shape := ⟨0, ![]⟩
abbrev S8x1 : Shape := ⟨2, ![8, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S2048x81920, .f32⟩
  | .hbm, ⟨1, _⟩ => ⟨S2048x81920, .f32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S81920x4, .f32⟩
  | .hbm, ⟨12, _⟩ => ⟨S2048x4, .f32⟩
  | .hbm, ⟨13, _⟩ => ⟨S1x4, .f32⟩
  | .hbm, ⟨14, _⟩ => ⟨S2048x4, .f32⟩
  | .hbm, ⟨15, _⟩ => ⟨S2048x4, .f32⟩
  | .hbm, ⟨16, _⟩ => ⟨S81920x4, .f32⟩
  | .hbm, ⟨17, _⟩ => ⟨S2048x4, .f32⟩
  | .hbm, ⟨18, _⟩ => ⟨S1x4, .f32⟩
  | .hbm, ⟨19, _⟩ => ⟨S2048x4, .f32⟩
  | .hbm, ⟨20, _⟩ => ⟨S2048x4, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x8, .f32⟩
  | .hbm, ⟨35, _⟩ => ⟨S2048x8, .f32⟩
  | .hbm, ⟨36, _⟩ => ⟨S_, .f32⟩
  | .hbm, ⟨37, _⟩ => ⟨S2048x8, .f32⟩
  | .hbm, ⟨38, _⟩ => ⟨S2048x8, .f32⟩
  | .hbm, ⟨39, _⟩ => ⟨S8x8, .f32⟩
  | .hbm, ⟨40, _⟩ => ⟨S2048x8, .f32⟩
  | .hbm, ⟨41, _⟩ => ⟨S1x8, .f32⟩
  | .hbm, ⟨42, _⟩ => ⟨S2048x8, .f32⟩
  | .hbm, ⟨43, _⟩ => ⟨S2048x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048x8, .f32⟩
  | .hbm, ⟨48, _⟩ => ⟨S2048x8, .f32⟩
  | .hbm, ⟨49, _⟩ => ⟨S_, .f32⟩
  | .hbm, ⟨50, _⟩ => ⟨S2048x8, .f32⟩
  | .hbm, ⟨51, _⟩ => ⟨S2048x8, .f32⟩
  | .hbm, ⟨52, _⟩ => ⟨S8x1, .f32⟩
  | .hbm, ⟨53, _⟩ => ⟨S2048x1, .f32⟩
  | .hbm, ⟨54, _⟩ => ⟨S1x1, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S2048x1, .f32⟩
  | _, _ => ⟨S2048x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  transposes_S4x81920_S81920x4_1_0 : S4x81920.Transposes [1, 0] S81920x4
  bcast_S4_S1x4_1 : S4.BroadcastsInDim S1x4 (![1] : Fin 1 → Fin S1x4.rank)
  bcast_S1x4_S2048x4_0_1 : S1x4.BroadcastsInDim S2048x4 (![0, 1] : Fin 2 → Fin S2048x4.rank)
  concatenates_S2048x4_S2048x4_S2048x8_d1 : Shape.Concatenates [S2048x4, S2048x4] S2048x8 1
  bcast_S2048x1_S2048x8_0_1 : S2048x1.BroadcastsInDim S2048x8 (![0, 1] : Fin 2 → Fin S2048x8.rank)
  bcast_S_S2048x1 : S_.BroadcastsInDim S2048x1 (![] : Fin 0 → Fin S2048x1.rank)
  bcast_S_S2048x8 : S_.BroadcastsInDim S2048x8 (![] : Fin 0 → Fin S2048x8.rank)
  transposes_S8x8_S8x8_1_0 : S8x8.Transposes [1, 0] S8x8
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  transposes_S1x8_S8x1_1_0 : S1x8.Transposes [1, 0] S8x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S2048x81920_S81920x4_S2048x4_1_0_0_1_n_n_wf : DotDims.WF S2048x81920 S81920x4 S2048x4 [1] [0] [0] [1] [] []
  dot_S2048x8_S8x8_S2048x8_1_0_0_1_n_n_wf : DotDims.WF S2048x8 S8x8 S2048x8 [1] [0] [0] [1] [] []
  dot_S2048x8_S8x1_S2048x1_1_0_0_1_n_n_wf : DotDims.WF S2048x8 S8x1 S2048x1 [1] [0] [0] [1] [] []

variable [Facts₀]

def dot_S2048x81920_S81920x4_S2048x4_1_0_0_1_n_n : DotDims S2048x81920 S81920x4 S2048x4 where
  lhsContracting := [1]
  rhsContracting := [0]
  lhsNonContracting := [0]
  rhsNonContracting := [1]
  lhsBatch := []
  rhsBatch := []
  wf := dot_S2048x81920_S81920x4_S2048x4_1_0_0_1_n_n_wf
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf

class Facts : Prop extends Facts₀ where

variable [Facts]
-- ==== Proof.Spec.lean ====
/-
  The loss of the small evaluation network, one extended real per batch row, as a function of the argument arrays.

  Row r of the batch: two feature vectors of length 81920 (white, black) are each contracted with the four rows of the
  feature weights and shifted by the feature bias, giving w and b in EReal^4. With the row's turn flag t the two are mixed
  both ways, t·w + (1 − t)·b and t·b + (1 − t)·w, and each mixture is clipped to [0, 1]: eight numbers, the first mixture's
  four followed by the second's four. A dense layer of width eight (weights 8 × 8, a bias) followed by the same clip, then a
  dense layer of width one (weights 1 × 8, a bias) give the row's model value. The loss is the half-and-half blend of the
  squared distance of the model's win probability (the logistic of value / 400) to the score's win probability and to the
  game result.

  Only the shape of the sums matters below: the contraction of length eight is written as its first four terms plus its
  last four, which is how one of the two programs computes it, and `sum_halves` says that this is the plain sum over eight.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The word of the float 1.0 denotes the extended real 1. -/
theorem ofBits_one : Ideal.ofBits .f32 0x3F800000#32 = 1 := by
  simp [Ideal.ofBits, Ideal.ieee, -EReal.coe_mul]; norm_num

/-- Clipping to the interval [0, 1]: first from below at 0, then from above at 1. -/
def clip (x : EReal) : EReal := min (Ideal.ofBits .f32 0x3F800000#32) (max (Ideal.ofBits .f32 0x00000000#32) x)

/-- The mixture t·u + (1 − t)·v. -/
def mix (t u v : EReal) : EReal := t * u + (Ideal.ofBits .f32 0x3F800000#32 - t) * v

/-- The win probability of a value: the logistic of value / 400. -/
def winp (x : EReal) : EReal := Ideal.logistic (Ideal.div x (Ideal.ofBits .f32 0x43C80000#32))

/-- The logistic spelled out, 1 / (1 + e^(−x/400)) with the float 1.0 for both ones, is the win probability. -/
theorem winp_spelled (x : EReal) :
    Ideal.div (Ideal.ofBits .f32 0x3F800000#32)
      (Ideal.ofBits .f32 0x3F800000#32 + Ideal.exp (-(Ideal.div x (Ideal.ofBits .f32 0x43C80000#32)))) = winp x := by
  rw [ofBits_one]; rfl

/-- The blended loss of a model value against a score and a result. -/
def blend (mr sc rs : EReal) : EReal :=
  Ideal.ofBits .f32 0x3F000000#32 * ((winp mr - winp sc) * (winp mr - winp sc))
    + Ideal.ofBits .f32 0x3F000000#32 * ((winp mr - rs) * (winp mr - rs))

/-- A contraction of length eight written as its first four terms plus its last four is the sum over all eight. -/
theorem sum_halves {M : Type*} [AddCommMonoid M] (f : Fin 8 → M) :
    (∑ j : Fin 4, f (Fin.castAdd 4 j)) + ∑ j : Fin 4, f (Fin.natAdd 4 j) = ∑ k : Fin 8, f k :=
  (Fin.sum_univ_add (a := 4) (b := 4) f).symm

/-- The feature transform of row r, output j: the contraction over the 81920 features plus the bias. -/
def feat (X : FVec Ideal ⟨2, ![2048, 81920]⟩ .f32) (W : FVec Ideal ⟨2, ![4, 81920]⟩ .f32) (Bf : FVec Ideal ⟨1, ![4]⟩ .f32)
    (r : Fin 2048) (j : Fin 4) : EReal :=
  (∑ k : Fin 81920, X (ix2 r k) * W (ix2 j k)) + Bf (ix1 j)

/-- The hidden unit n before its clip: the first mixture against the first four columns of the weights, plus the second
    mixture against the last four, plus the bias. -/
def hidden (a1 a2 : Fin 4 → EReal) (L1 : FVec Ideal ⟨2, ![8, 8]⟩ .f32) (B1 : FVec Ideal ⟨1, ![8]⟩ .f32) (n : Fin 8) : EReal :=
  ((∑ j : Fin 4, a1 j * L1 (ix2 n (Fin.castAdd 4 j))) + ∑ j : Fin 4, a2 j * L1 (ix2 n (Fin.natAdd 4 j))) + B1 (ix1 n)

/-- The model value from the eight clipped hidden units. -/
def value (h : Fin 8 → EReal) (L2 : FVec Ideal ⟨2, ![1, 8]⟩ .f32) (B2 : FVec Ideal ⟨1, ![1]⟩ .f32) : EReal :=
  (∑ n : Fin 8, h n * L2 (ix2 (0 : Fin 1) n)) + B2 (ix1 (0 : Fin 1))

/-- The loss of row r from the row's two feature transforms. -/
def lossOf (w b : Fin 4 → EReal) (t sc rs : EReal)
    (L1 : FVec Ideal ⟨2, ![8, 8]⟩ .f32) (B1 : FVec Ideal ⟨1, ![8]⟩ .f32)
    (L2 : FVec Ideal ⟨2, ![1, 8]⟩ .f32) (B2 : FVec Ideal ⟨1, ![1]⟩ .f32) : EReal :=
  blend (value (fun n => clip (hidden (fun j => clip (mix t (w j) (b j))) (fun j => clip (mix t (b j) (w j))) L1 B1 n)) L2 B2) sc rs

/-- THE RESULT: the loss column, row by row, of the eleven argument arrays. -/
def loss (X0 X1 : FVec Ideal ⟨2, ![2048, 81920]⟩ .f32) (T Sc Rs : FVec Ideal ⟨2, ![2048, 1]⟩ .f32)
    (W : FVec Ideal ⟨2, ![4, 81920]⟩ .f32) (Bf : FVec Ideal ⟨1, ![4]⟩ .f32)
    (L1 : FVec Ideal ⟨2, ![8, 8]⟩ .f32) (B1 : FVec Ideal ⟨1, ![8]⟩ .f32)
    (L2 : FVec Ideal ⟨2, ![1, 8]⟩ .f32) (B2 : FVec Ideal ⟨1, ![1]⟩ .f32) : FVec Ideal ⟨2, ![2048, 1]⟩ .f32 :=
  fun i => lossOf (feat X0 W Bf (i 0)) (feat X1 W Bf (i 0)) (T (ix2 (i 0) (0 : Fin 1))) (Sc (ix2 (i 0) (0 : Fin 1)))
    (Rs (ix2 (i 0) (0 : Fin 1))) L1 B1 L2 B2

end Cert.Spec

end
-- ==== Proof.RefSide.lean ====
/-
  The reference program computes the specified loss.

  The reference is a straight line of host operations. Read one operation at a time at a row r (and, where there is one,
  a column), it is: the two feature contractions over all 81920 features plus the bias; their two concatenations, (w, b)
  and (b, w), mixed by the row's turn flag and clipped; a contraction of length eight with the transposed 8 × 8 weights plus
  a bias, clipped; a contraction of length eight with the transposed 1 × 8 weights plus a bias; and the blended loss with
  the logistic spelled as 1 / (1 + e^(−x)). A concatenation reads its left piece at columns 0 … 3 and its right piece at
  columns 4 … 7, so the contraction of length eight over a concatenation is the first piece's four terms plus the second
  piece's four terms: the specification's two half sums.
-/
import proofs.«155728_j31525059952895_2_alg».proof.Proof.Gen.ReferenceIdeal.Read
import proofs.«155728_j31525059952895_2_alg».proof.Proof.Spec
import Idealize.ShloMosaic.Lib.Pipeline.Value
import Idealize.ShloMosaic.Lib.ValueIdx

noncomputable section

namespace Cert.RefSide

open Cert.ReferenceIdeal Cert.ReferenceIdeal.Gen Cert.ReferenceIdeal.Read Idealize.ShloMosaic Idealize.ShloMosaic.ValueIdx

variable (x0 x1 : FVec Ideal S2048x81920 .f32) (x2 x3 x4 : FVec Ideal S2048x1 .f32) (x5 : FVec Ideal S4x81920 .f32)
  (x6 : FVec Ideal S4 .f32) (x7 : FVec Ideal S8x8 .f32) (x8 : FVec Ideal S8 .f32) (x9 : FVec Ideal S1x8 .f32)
  (x10 : FVec Ideal S1 .f32)

/-! ## The two feature transforms -/

/-- The white feature transform at (r, j): the contraction over the features against row j of the weights, plus the bias. -/
theorem feat_white (r : Fin 2048) (j : Fin 4) :
    val_main_v4 (F := Ideal) x0 x5 x6 (ix2 r j) = Cert.Spec.feat x0 x5 x6 r j := by
  have e1 : ∀ k, lidx_main_v1 (ix2 r j) k = ix2 r k := fun k => funext fun a => Fin.ext (by
    match a with | ⟨0, _⟩ => rfl | ⟨1, _⟩ => rfl)
  have e2 : ∀ k, idx_main_v0 (ridx_main_v1 (ix2 r j) k) = ix2 j k := fun k => funext fun a => Fin.ext (by
    match a with | ⟨0, _⟩ => rfl | ⟨1, _⟩ => rfl)
  have e3 : idx_main_v2 (idx_main_v3 (ix2 r j)) = ix1 j := funext fun a => Fin.ext (by
    match a with | ⟨0, _⟩ => rfl)
  rw [val_main_v4_apply, val_main_v1_apply, val_main_v3_apply, val_main_v2_apply, e3]
  simp only [val_main_v0_apply, e1, e2]
  rfl

/-- The black feature transform at (r, j). -/
theorem feat_black (r : Fin 2048) (j : Fin 4) :
    val_main_v9 (F := Ideal) x1 x5 x6 (ix2 r j) = Cert.Spec.feat x1 x5 x6 r j := by
  have e1 : ∀ k, lidx_main_v6 (ix2 r j) k = ix2 r k := fun k => funext fun a => Fin.ext (by
    match a with | ⟨0, _⟩ => rfl | ⟨1, _⟩ => rfl)
  have e2 : ∀ k, idx_main_v5 (ridx_main_v6 (ix2 r j) k) = ix2 j k := fun k => funext fun a => Fin.ext (by
    match a with | ⟨0, _⟩ => rfl | ⟨1, _⟩ => rfl)
  have e3 : idx_main_v7 (idx_main_v8 (ix2 r j)) = ix1 j := funext fun a => Fin.ext (by
    match a with | ⟨0, _⟩ => rfl)
  rw [val_main_v9_apply, val_main_v6_apply, val_main_v8_apply, val_main_v7_apply, e3]
  simp only [val_main_v5_apply, e1, e2]
  rfl

/-! ## A concatenation of two blocks of four columns -/

/-- Columns 0 … 3 of a concatenation along the columns are the left piece. -/
theorem cat_left (u v : FVec Ideal S2048x4 .f32) (r : Fin 2048) (q : Fin 4) :
    concatenate S2048x8 1 [⟨S2048x4, u⟩, ⟨S2048x4, v⟩] concatenates_S2048x4_S2048x4_S2048x8_d1 (ix2 r (Fin.castAdd 4 q))
      = u (ix2 r q) :=
  concatenate_pair_apply_left (t := S2048x8) (1 : Fin 2) u v concatenates_S2048x4_S2048x4_S2048x8_d1 (ix2 r (Fin.castAdd 4 q)) rfl
    (ix2 r q) (fun b => match b with | ⟨0, _⟩ => rfl | ⟨1, _⟩ => rfl)

/-- Columns 4 … 7 of a concatenation along the columns are the right piece. -/
theorem cat_right (u v : FVec Ideal S2048x4 .f32) (r : Fin 2048) (q : Fin 4) :
    concatenate S2048x8 1 [⟨S2048x4, u⟩, ⟨S2048x4, v⟩] concatenates_S2048x4_S2048x4_S2048x8_d1 (ix2 r (Fin.natAdd 4 q))
      = v (ix2 r q) :=
  concatenate_pair_apply_right (t := S2048x8) (1 : Fin 2) u v concatenates_S2048x4_S2048x4_S2048x8_d1 (ix2 r (Fin.natAdd 4 q)) rfl rfl
    (ix2 r q) (fun b hb => match b with | ⟨0, _⟩ => rfl | ⟨1, _⟩ => absurd rfl hb) (by show q.val + 4 = 4 + q.val; omega)

/-! ## The first layer's input: the mixtures, clipped -/

/-- The clipped mixture at (r, k), over the two concatenations at (r, k). -/
theorem mixed_apply (r : Fin 2048) (k : Fin 8) :
    val_main_v19 (F := Ideal) x0 x1 x2 x5 x6 (ix2 r k)
      = Cert.Spec.clip (Cert.Spec.mix (x2 (ix2 r (0 : Fin 1))) (val_main_v10 (F := Ideal) x0 x1 x5 x6 (ix2 r k))
          (val_main_v15 (F := Ideal) x0 x1 x5 x6 (ix2 r k))) := by
  have e : idx_main_v11 (ix2 r k) = ix2 r (0 : Fin 1) := funext fun a => Fin.ext (by
    match a with | ⟨0, _⟩ => rfl | ⟨1, _⟩ => rfl)
  have e' : idx_main_v16 (ix2 r k) = ix2 r (0 : Fin 1) := funext fun a => Fin.ext (by
    match a with | ⟨0, _⟩ => rfl | ⟨1, _⟩ => rfl)
  rw [val_main_v19_apply, val_main_call0_v4_apply, val_main_call0_v3_apply, val_main_cst_1_apply, val_main_call0_v2_apply,
    val_main_call0_v1_apply, val_main_call0_v0_apply, val_main_cst_0_apply, val_main_v18_apply, val_main_v12_apply,
    val_main_v11_apply, e, val_main_v17_apply, val_main_v16_apply, e', val_main_v14_apply, val_main_v13_apply,
    val_main_cst_apply]
  rfl

/-- Columns 0 … 3 of the clipped mixture: t·w + (1 − t)·b, clipped. -/
theorem mixed_left (r : Fin 2048) (q : Fin 4) :
    val_main_v19 (F := Ideal) x0 x1 x2 x5 x6 (ix2 r (Fin.castAdd 4 q))
      = Cert.Spec.clip (Cert.Spec.mix (x2 (ix2 r (0 : Fin 1))) (Cert.Spec.feat x0 x5 x6 r q) (Cert.Spec.feat x1 x5 x6 r q)) := by
  rw [mixed_apply]
  unfold val_main_v10 val_main_v15
  rw [cat_left, cat_left, feat_white, feat_black]

/-- Columns 4 … 7 of the clipped mixture: t·b + (1 − t)·w, clipped. -/
theorem mixed_right (r : Fin 2048) (q : Fin 4) :
    val_main_v19 (F := Ideal) x0 x1 x2 x5 x6 (ix2 r (Fin.natAdd 4 q))
      = Cert.Spec.clip (Cert.Spec.mix (x2 (ix2 r (0 : Fin 1))) (Cert.Spec.feat x1 x5 x6 r q) (Cert.Spec.feat x0 x5 x6 r q)) := by
  rw [mixed_apply]
  unfold val_main_v10 val_main_v15
  rw [cat_right, cat_right, feat_white, feat_black]

/-! ## The two dense layers -/

/-- The hidden unit n of row r, clipped. -/
theorem hidden_apply (r : Fin 2048) (n : Fin 8) :
    val_main_v25 (F := Ideal) x0 x1 x2 x5 x6 x7 x8 (ix2 r n)
      = Cert.Spec.clip (Cert.Spec.hidden
          (fun j => Cert.Spec.clip (Cert.Spec.mix (x2 (ix2 r (0 : Fin 1))) (Cert.Spec.feat x0 x5 x6 r j) (Cert.Spec.feat x1 x5 x6 r j)))
          (fun j => Cert.Spec.clip (Cert.Spec.mix (x2 (ix2 r (0 : Fin 1))) (Cert.Spec.feat x1 x5 x6 r j) (Cert.Spec.feat x0 x5 x6 r j)))
          x7 x8 n) := by
  have e1 : ∀ k, lidx_main_v21 (ix2 r n) k = ix2 r k := fun k => funext fun a => Fin.ext (by
    match a with | ⟨0, _⟩ => rfl | ⟨1, _⟩ => rfl)
  have e2 : ∀ k, idx_main_v20 (ridx_main_v21 (ix2 r n) k) = ix2 n k := fun k => funext fun a => Fin.ext (by
    match a with | ⟨0, _⟩ => rfl | ⟨1, _⟩ => rfl)
  have e3 : idx_main_v22 (idx_main_v23 (ix2 r n)) = ix1 n := funext fun a => Fin.ext (by
    match a with | ⟨0, _⟩ => rfl)
  rw [val_main_v25_apply, val_main_call1_v4_apply, val_main_call1_v3_apply, val_main_cst_3_apply, val_main_call1_v2_apply,
    val_main_call1_v1_apply, val_main_call1_v0_apply, val_main_cst_2_apply, val_main_v24_apply, val_main_v21_apply,
    val_main_v23_apply, val_main_v22_apply, e3]
  simp only [val_main_v20_apply, e1, e2]
  rw [← Cert.Spec.sum_halves]
  simp only [mixed_left, mixed_right]
  rfl

/-- The model value of row r. -/
theorem value_apply (r : Fin 2048) :
    val_main_v30 (F := Ideal) x0 x1 x2 x5 x6 x7 x8 x9 x10 (ix2 r (0 : Fin 1))
      = Cert.Spec.value (fun n => Cert.Spec.clip (Cert.Spec.hidden
          (fun j => Cert.Spec.clip (Cert.Spec.mix (x2 (ix2 r (0 : Fin 1))) (Cert.Spec.feat x0 x5 x6 r j) (Cert.Spec.feat x1 x5 x6 r j)))
          (fun j => Cert.Spec.clip (Cert.Spec.mix (x2 (ix2 r (0 : Fin 1))) (Cert.Spec.feat x1 x5 x6 r j) (Cert.Spec.feat x0 x5 x6 r j)))
          x7 x8 n)) x9 x10 := by
  have e1 : ∀ k, lidx_main_v27 (ix2 r (0 : Fin 1)) k = ix2 r k := fun k => funext fun a => Fin.ext (by
    match a with | ⟨0, _⟩ => rfl | ⟨1, _⟩ => rfl)
  have e2 : ∀ k, idx_main_v26 (ridx_main_v27 (ix2 r (0 : Fin 1)) k) = ix2 (0 : Fin 1) k := fun k => funext fun a => Fin.ext (by
    match a with | ⟨0, _⟩ => rfl | ⟨1, _⟩ => rfl)
  have e3 : idx_main_v28 (idx_main_v29 (ix2 r (0 : Fin 1))) = ix1 (0 : Fin 1) := funext fun a => Fin.ext (by
    match a with | ⟨0, _⟩ => rfl)
  rw [val_main_v30_apply, val_main_v27_apply, val_main_v29_apply, val_main_v28_apply, e3]
  simp only [val_main_v26_apply, e1, e2, hidden_apply]
  rfl

/-! ## The loss -/

/-- The reference's result at row r is the blended loss of the row's model value, score and result. -/
theorem loss_apply (r : Fin 2048) :
    val_main_v55 (F := Ideal) x0 x1 x2 x3 x4 x5 x6 x7 x8 x9 x10 (ix2 r (0 : Fin 1))
      = Cert.Spec.blend (val_main_v30 (F := Ideal) x0 x1 x2 x5 x6 x7 x8 x9 x10 (ix2 r (0 : Fin 1)))
          (x3 (ix2 r (0 : Fin 1))) (x4 (ix2 r (0 : Fin 1))) := by
  rw [val_main_v55_apply, val_main_v52_apply, val_main_v54_apply, val_main_v51_apply, val_main_v53_apply,
    val_main_cst_10_apply, val_main_cst_11_apply, val_main_v48_apply, val_main_v50_apply, val_main_v47_apply,
    val_main_v49_apply, val_main_v38_apply, val_main_v46_apply, val_main_v37_apply, val_main_v45_apply,
    val_main_cst_6_apply, val_main_cst_9_apply, val_main_v36_apply, val_main_v44_apply, val_main_v35_apply,
    val_main_v43_apply, val_main_cst_5_apply, val_main_cst_8_apply, val_main_v34_apply, val_main_v42_apply,
    val_main_v33_apply, val_main_v41_apply, val_main_v32_apply, val_main_v40_apply, val_main_v31_apply,
    val_main_v39_apply, val_main_cst_4_apply, val_main_cst_7_apply]
  unfold Cert.Spec.blend
  rw [← Cert.Spec.winp_spelled, ← Cert.Spec.winp_spelled (x3 (ix2 r (0 : Fin 1)))]
  rfl

/-- THE REFERENCE IS THE SPECIFICATION: its result array is the loss column of its eleven arguments. -/
theorem result_eq :
    val_main_v55 (F := Ideal) x0 x1 x2 x3 x4 x5 x6 x7 x8 x9 x10 = Cert.Spec.loss x0 x1 x2 x3 x4 x5 x6 x7 x8 x9 x10 := by
  funext i
  obtain ⟨r, u, rfl⟩ : ∃ (r : Fin 2048) (u : Fin 1), i = ix2 r u := ⟨i 0, i 1, eq_ix2 i⟩
  obtain rfl : u = 0 := Subsingleton.elim _ _
  rw [loss_apply, value_apply]
  rfl

end Cert.RefSide

end
-- ==== Proof.KernelPieces.lean ====
/-
  What each control case of the body leaves behind, as values.

  The body has three control cases over the reduction coordinate k of the grid: k = 0 (both accumulators are first stored
  with zeros, then this point's terms are added), 0 < k < 19 (this point's terms are added to what the point before left),
  and k = 19 (the same, and then the epilogue turns the two finished accumulators into the loss block). Each store covers
  its whole buffer, so what a buffer holds afterwards is the last store's payload, with every load inside it reading a
  whole input block, what the point before left, or, for a load that follows a store of this same point, that store's
  payload.
-/
import proofs.«155728_j31525059952895_2_alg».proof.Proof.Gen.KernelIdeal.Frame
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Middle points: the white accumulator ends at what the point before left plus this point's terms. -/
theorem sout0_B_0_eq (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S1x4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S1x8 .f32) (harg11 : arg11.IsWhole) (arg12 : Memref sig .tc .vmem S1x8 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : ¬cond0_1 i) (x0 : Vec F S256x4096 .f32) (x1 : Vec F S256x4096 .f32) (x2 : Vec F S4096x4 .f32) (x3 : Vec F S1x4 .f32) (x4 : Vec F S256x1 .f32) (x5 : Vec F S256x1 .f32) (x6 : Vec F S256x1 .f32) (x7 : Vec F S8x4 .f32) (x8 : Vec F S8x4 .f32) (x9 : Vec F S1x8 .f32) (x10 : Vec F S1x8 .f32) (x11 : Vec F S1x1 .f32) (xs0 : Vec F S256x4 .f32) (xs1 : Vec F S256x4 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  rw [View.canon_unit_zero hz]
  simp only [View.readCov_unit_zero (S := S256x4) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S256x4096) hz, View.ld_unit_zero (S := S4096x4) hz, View.ld_unit_zero (S := S256x4) hz, View.ld_unit_zero (S := S1x4) hz, View.ld_unit_zero (S := S256x1) hz, View.ld_unit_zero (S := S8x4) hz, View.ld_unit_zero (S := S1x8) hz, View.ld_unit_zero (S := S1x1) hz]

/-- Middle points: the black accumulator likewise. -/
theorem sout0_B_1_eq (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S1x4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S1x8 .f32) (harg11 : arg11.IsWhole) (arg12 : Memref sig .tc .vmem S1x8 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : ¬cond0_1 i) (x0 : Vec F S256x4096 .f32) (x1 : Vec F S256x4096 .f32) (x2 : Vec F S4096x4 .f32) (x3 : Vec F S1x4 .f32) (x4 : Vec F S256x1 .f32) (x5 : Vec F S256x1 .f32) (x6 : Vec F S256x1 .f32) (x7 : Vec F S8x4 .f32) (x8 : Vec F S8x4 .f32) (x9 : Vec F S1x8 .f32) (x10 : Vec F S1x8 .f32) (x11 : Vec F S1x1 .f32) (xs0 : Vec F S256x4 .f32) (xs1 : Vec F S256x4 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay5 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  rw [View.canon_unit_zero hz]
  simp only [View.readCov_unit_zero (S := S256x4) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S256x4096) hz, View.ld_unit_zero (S := S4096x4) hz, View.ld_unit_zero (S := S256x4) hz, View.ld_unit_zero (S := S1x4) hz, View.ld_unit_zero (S := S256x1) hz, View.ld_unit_zero (S := S8x4) hz, View.ld_unit_zero (S := S1x8) hz, View.ld_unit_zero (S := S1x1) hz]

/-- Last point of a row of blocks: the white accumulator likewise. -/
theorem sout0_C_0_eq (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S1x4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S1x8 .f32) (harg11 : arg11.IsWhole) (arg12 : Memref sig .tc .vmem S1x8 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : cond0_1 i) (x0 : Vec F S256x4096 .f32) (x1 : Vec F S256x4096 .f32) (x2 : Vec F S4096x4 .f32) (x3 : Vec F S1x4 .f32) (x4 : Vec F S256x1 .f32) (x5 : Vec F S256x1 .f32) (x6 : Vec F S256x1 .f32) (x7 : Vec F S8x4 .f32) (x8 : Vec F S8x4 .f32) (x9 : Vec F S1x8 .f32) (x10 : Vec F S1x8 .f32) (x11 : Vec F S1x1 .f32) (xs0 : Vec F S256x4 .f32) (xs1 : Vec F S256x4 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz]
  simp only [View.readCov_unit_zero (S := S256x4) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S256x4096) hz, View.ld_unit_zero (S := S4096x4) hz, View.ld_unit_zero (S := S256x4) hz, View.ld_unit_zero (S := S1x4) hz, View.ld_unit_zero (S := S256x1) hz, View.ld_unit_zero (S := S8x4) hz, View.ld_unit_zero (S := S1x8) hz, View.ld_unit_zero (S := S1x1) hz]

/-- Last point of a row of blocks: the black accumulator likewise. -/
theorem sout0_C_1_eq (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S1x4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S1x8 .f32) (harg11 : arg11.IsWhole) (arg12 : Memref sig .tc .vmem S1x8 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : cond0_1 i) (x0 : Vec F S256x4096 .f32) (x1 : Vec F S256x4096 .f32) (x2 : Vec F S4096x4 .f32) (x3 : Vec F S1x4 .f32) (x4 : Vec F S256x1 .f32) (x5 : Vec F S256x1 .f32) (x6 : Vec F S256x1 .f32) (x7 : Vec F S8x4 .f32) (x8 : Vec F S8x4 .f32) (x9 : Vec F S1x8 .f32) (x10 : Vec F S1x8 .f32) (x11 : Vec F S1x1 .f32) (xs0 : Vec F S256x4 .f32) (xs1 : Vec F S256x4 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay5 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz]
  simp only [View.readCov_unit_zero (S := S256x4) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S256x4096) hz, View.ld_unit_zero (S := S4096x4) hz, View.ld_unit_zero (S := S256x4) hz, View.ld_unit_zero (S := S1x4) hz, View.ld_unit_zero (S := S256x1) hz, View.ld_unit_zero (S := S8x4) hz, View.ld_unit_zero (S := S1x8) hz, View.ld_unit_zero (S := S1x1) hz]

/-- First point of a row of blocks: the white accumulator ends at the zero block plus this point's terms. -/
theorem sout0_A_0_eq (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S1x4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S1x8 .f32) (harg11 : arg11.IsWhole) (arg12 : Memref sig .tc .vmem S1x8 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : cond0_0 i) (hc1 : ¬cond0_1 i) (x0 : Vec F S256x4096 .f32) (x1 : Vec F S256x4096 .f32) (x2 : Vec F S4096x4 .f32) (x3 : Vec F S1x4 .f32) (x4 : Vec F S256x1 .f32) (x5 : Vec F S256x1 .f32) (x6 : Vec F S256x1 .f32) (x7 : Vec F S8x4 .f32) (x8 : Vec F S8x4 .f32) (x9 : Vec F S1x8 .f32) (x10 : Vec F S1x8 .f32) (x11 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay4 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S256x4) hz, View.readCov_unit_zero (S := S256x4) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x4096) hz, View.ld_unit_zero (S := S4096x4) hz, View.ld_unit_zero (S := S256x4) hz, View.ld_unit_zero (S := S1x4) hz, View.ld_unit_zero (S := S256x1) hz, View.ld_unit_zero (S := S8x4) hz, View.ld_unit_zero (S := S1x8) hz, View.ld_unit_zero (S := S1x1) hz]

/-- First point of a row of blocks: the black accumulator likewise. -/
theorem sout0_A_1_eq (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S1x4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S1x8 .f32) (harg11 : arg11.IsWhole) (arg12 : Memref sig .tc .vmem S1x8 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : cond0_0 i) (hc1 : ¬cond0_1 i) (x0 : Vec F S256x4096 .f32) (x1 : Vec F S256x4096 .f32) (x2 : Vec F S4096x4 .f32) (x3 : Vec F S1x4 .f32) (x4 : Vec F S256x1 .f32) (x5 : Vec F S256x1 .f32) (x6 : Vec F S256x1 .f32) (x7 : Vec F S8x4 .f32) (x8 : Vec F S8x4 .f32) (x9 : Vec F S1x8 .f32) (x10 : Vec F S1x8 .f32) (x11 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay5 x1 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S256x4) hz, View.readCov_unit_zero (S := S256x4) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x4096) hz, View.ld_unit_zero (S := S4096x4) hz, View.ld_unit_zero (S := S256x4) hz, View.ld_unit_zero (S := S1x4) hz, View.ld_unit_zero (S := S256x1) hz, View.ld_unit_zero (S := S8x4) hz, View.ld_unit_zero (S := S1x8) hz, View.ld_unit_zero (S := S1x1) hz]

/-- Last point of a row of blocks: the output block is the epilogue of the two accumulators as this point leaves them. -/
theorem out0_C_12_eq (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S1x4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S1x8 .f32) (harg11 : arg11.IsWhole) (arg12 : Memref sig .tc .vmem S1x8 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : cond0_1 i) (x0 : Vec F S256x4096 .f32) (x1 : Vec F S256x4096 .f32) (x2 : Vec F S4096x4 .f32) (x3 : Vec F S1x4 .f32) (x4 : Vec F S256x1 .f32) (x5 : Vec F S256x1 .f32) (x6 : Vec F S256x1 .f32) (x7 : Vec F S8x4 .f32) (x8 : Vec F S8x4 .f32) (x9 : Vec F S1x8 .f32) (x10 : Vec F S1x8 .f32) (x11 : Vec F S1x1 .f32) (xs0 : Vec F S256x4 .f32) (xs1 : Vec F S256x4 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay6 (k0_pay10 x3 (k0_pay4 x0 x2 xs0) (k0_pay5 x1 x2 xs1) x4) (k0_pay11 x8) (k0_pay12 x9) (k0_pay13 x3 (k0_pay4 x0 x2 xs0) (k0_pay5 x1 x2 xs1) x4 x7) x10 x11 x5 x6 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz]
  simp only [View.readCov_unit_zero (S := S256x4) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S256x4096) hz, View.ld_unit_zero (S := S4096x4) hz, View.ld_unit_zero (S := S256x4) hz, View.ld_unit_zero (S := S1x4) hz, View.ld_unit_zero (S := S256x1) hz, View.ld_unit_zero (S := S8x4) hz, View.ld_unit_zero (S := S1x8) hz, View.ld_unit_zero (S := S1x1) hz]

end Cert.KernelSide

end
-- ==== Proof.LibDotRows.lean ====
/-
  Two matrix products read at an index over the extended reals, as plain finite sums, for any extents.

  * a matrix product of an [M, K] operand with a [K, N] operand into the all-zero accumulator, at (r, c), is
    ∑ k, l (r, k) · w (k, c);
  * a host contraction of the LAST axis of an [A, B, K] operand with the FIRST axis of a [K, N] operand, at
    (a, b, c), is ∑ k, l (a, b, k) · w (k, c).

  The dimension record of a printed program enters only through one-line coordinate facts (which coordinate of
  the result, or of the contraction position, each operand coordinate is): for a record with literal axis lists
  each is `by unfold DotDims.lhsIdx; rw [dif_neg (by decide), dif_pos (by decide)]; rfl` or
  `D.lhsIdx_val_of_single rfl j q`.
-/
import Idealize.ShloMosaic.PureOps.Ideal.Laws
import Idealize.ShloMosaic.Lib.ValueIdx

noncomputable section

namespace Cert.LibDotRows

open Idealize.ShloMosaic Idealize.ShloMosaic.ValueIdx

/-- [M, K] · [K, N] into the zero accumulator, at (r, c): the sum over the shared axis. -/
theorem matmul_zero_ix2 {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    (l : FVec Ideal ⟨2, ![M, K]⟩ φ₁) (w : FVec Ideal ⟨2, ![K, N]⟩ φ₂) (r : Fin M) (c : Fin N) :
    matmul D prec l w (constant ⟨2, ![M, N]⟩ .f32 0x00000000#32) (ix2 r c) = ∑ k : Fin K, l (ix2 r k) * w (ix2 k c) := by
  refine (Ideal.matmul_constant_zero_apply D prec l w (ix2 r c)).trans ?_
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-- The host's contraction [A, B, K] · [K, N] over the shared axis, at (a, b, c). -/
theorem dotGeneral_ix3 {A B K N : Nat} {φ₁ φ₂ : FTy}
    (D : DotDims ⟨3, ![A, B, K]⟩ ⟨2, ![K, N]⟩ ⟨3, ![A, B, N]⟩) (prec : Option ContractPrecision)
    (hr : D.contr.rank = 1) (hs : D.contr.size ⟨0, by omega⟩ = K)
    (hl0 : ∀ (j : (⟨3, ![A, B, N]⟩ : Shape).Idx) (q : D.contr.Idx), (D.lhsIdx j q (0 : Fin 3)).val = (j (0 : Fin 3)).val)
    (hl1 : ∀ (j : (⟨3, ![A, B, N]⟩ : Shape).Idx) (q : D.contr.Idx), (D.lhsIdx j q (1 : Fin 3)).val = (j (1 : Fin 3)).val)
    (hl2 : ∀ (j : (⟨3, ![A, B, N]⟩ : Shape).Idx) (q : D.contr.Idx), (D.lhsIdx j q (2 : Fin 3)).val = (q ⟨0, by omega⟩).val)
    (hr0 : ∀ (j : (⟨3, ![A, B, N]⟩ : Shape).Idx) (q : D.contr.Idx), (D.rhsIdx j q (0 : Fin 2)).val = (q ⟨0, by omega⟩).val)
    (hr1 : ∀ (j : (⟨3, ![A, B, N]⟩ : Shape).Idx) (q : D.contr.Idx), (D.rhsIdx j q (1 : Fin 2)).val = (j (2 : Fin 3)).val)
    (l : FVec Ideal ⟨3, ![A, B, K]⟩ φ₁) (w : FVec Ideal ⟨2, ![K, N]⟩ φ₂) (a : Fin A) (b : Fin B) (c : Fin N) :
    Host.dotGeneral D prec l w (ix3 a b c) = ∑ k : Fin K, l (ix3 a b k) * w (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 a b c) ((contrEquiv1 D K hr hs).symm k) = ix3 a b k := funext fun x => Fin.ext (by
    match x with
    | ⟨0, _⟩ => exact hl0 _ _
    | ⟨1, _⟩ => exact hl1 _ _
    | ⟨2, _⟩ => exact (hl2 _ _).trans hk)
  have er : D.rhsIdx (ix3 a b c) ((contrEquiv1 D K hr hs).symm k) = ix2 k c := funext fun x => Fin.ext (by
    match x with
    | ⟨0, _⟩ => exact (hr0 _ _).trans hk
    | ⟨1, _⟩ => exact hr1 _ _)
  rw [el, er]

end Cert.LibDotRows

end
-- ==== Proof.LibKeepdims.lean ====
/-
  Column forms of the keepdims layout operations, read at an index given by coordinates.

  A reduction over the lanes of a rank-2 value leaves a vector of length `a`; a kernel then re-lays it as a column
  `[a, 1]` (a shape cast) and spreads the column over `b` lanes (a broadcast). Element `(i, j)` of the spread
  column is element `i` of the vector, whatever `j` is. The row forms (`[a] → [1, a]`, `[1, b] → [a, b]`) are in
  the library (Lib/ValueLayout.lean); these are their transposed counterparts, in the same style: the parent lemma of
  Lib/Pipeline/Value.lean with both indices written `ixN …`.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- A vector re-laid as a column: element `(i, u)` of the `[a, 1]` column is element `i` of the vector (the only
    value of the unit coordinate `u` is `0`, so the two row-major positions agree). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column re-laid as a vector: element `i` of the vector is element `(i, 0)` of the `[a, 1]` column. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- ONE COLUMN BROADCAST over many lanes: element `(i, j)` of the `[a, b]` result is element `(i, 0)` of the column. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelPayloads.lean ====
/-
  The body's arithmetic, read at an index over the extended reals.

  Every value the body stores is a pure function of the blocks it loads. Read at a row p of the block (and a column where
  there is one) these functions are: a running feature sum plus this point's 4096 terms of the contraction; the two
  mixtures of the finished sums shifted by the bias, clipped; the contraction of the first mixture with the first four
  columns of the 8 × 8 weights; and the rest of the network down to the blended loss, which is the specification's
  `lossOf` of the row's two finished feature vectors.
-/
import proofs.«155728_j31525059952895_2_alg».proof.Proof.Gen.KernelIdeal.Skeleton
import proofs.«155728_j31525059952895_2_alg».proof.Proof.Spec
import proofs.«155728_j31525059952895_2_alg».proof.Proof.LibDotRows
import proofs.«155728_j31525059952895_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelSide

open Cert.KernelIdeal Cert.KernelIdeal.Gen Idealize.ShloMosaic Idealize.ShloMosaic.ValueIdx

/-! ## The three contractions' coordinate facts -/

theorem dot_S256x4096_S4096x4_S256x4_1_0_0_1_n_n_l0 (j : _) (q : dot_S256x4096_S4096x4_S256x4_1_0_0_1_n_n.contr.Idx) : (dot_S256x4096_S4096x4_S256x4_1_0_0_1_n_n.lhsIdx j q 0).val = (j 0).val := by
  unfold DotDims.lhsIdx
  rw [dif_neg (show ¬(0 : Fin S256x4096.rank) ∈ dot_S256x4096_S4096x4_S256x4_1_0_0_1_n_n.lhsBatch by decide), dif_pos (show (0 : Fin S256x4096.rank) ∈ dot_S256x4096_S4096x4_S256x4_1_0_0_1_n_n.lhsNonContracting by decide)]
  rfl
theorem dot_S256x4096_S4096x4_S256x4_1_0_0_1_n_n_l1 (j : _) (q : dot_S256x4096_S4096x4_S256x4_1_0_0_1_n_n.contr.Idx) : (dot_S256x4096_S4096x4_S256x4_1_0_0_1_n_n.lhsIdx j q 1).val = (q ⟨0, by decide⟩).val :=
  dot_S256x4096_S4096x4_S256x4_1_0_0_1_n_n.lhsIdx_val_of_single rfl j q
theorem dot_S256x4096_S4096x4_S256x4_1_0_0_1_n_n_r0 (j : _) (q : dot_S256x4096_S4096x4_S256x4_1_0_0_1_n_n.contr.Idx) : (dot_S256x4096_S4096x4_S256x4_1_0_0_1_n_n.rhsIdx j q 0).val = (q ⟨0, by decide⟩).val :=
  dot_S256x4096_S4096x4_S256x4_1_0_0_1_n_n.rhsIdx_val_of_single rfl j q
theorem dot_S256x4096_S4096x4_S256x4_1_0_0_1_n_n_r1 (j : _) (q : dot_S256x4096_S4096x4_S256x4_1_0_0_1_n_n.contr.Idx) : (dot_S256x4096_S4096x4_S256x4_1_0_0_1_n_n.rhsIdx j q 1).val = (j 1).val := by
  unfold DotDims.rhsIdx
  rw [dif_neg (show ¬(1 : Fin S4096x4.rank) ∈ dot_S256x4096_S4096x4_S256x4_1_0_0_1_n_n.rhsBatch by decide), dif_pos (show (1 : Fin S4096x4.rank) ∈ dot_S256x4096_S4096x4_S256x4_1_0_0_1_n_n.rhsNonContracting by decide)]
  rfl

theorem dot_S256x4_S4x8_S256x8_1_0_0_1_n_n_l0 (j : _) (q : dot_S256x4_S4x8_S256x8_1_0_0_1_n_n.contr.Idx) : (dot_S256x4_S4x8_S256x8_1_0_0_1_n_n.lhsIdx j q 0).val = (j 0).val := by
  unfold DotDims.lhsIdx
  rw [dif_neg (show ¬(0 : Fin S256x4.rank) ∈ dot_S256x4_S4x8_S256x8_1_0_0_1_n_n.lhsBatch by decide), dif_pos (show (0 : Fin S256x4.rank) ∈ dot_S256x4_S4x8_S256x8_1_0_0_1_n_n.lhsNonContracting by decide)]
  rfl
theorem dot_S256x4_S4x8_S256x8_1_0_0_1_n_n_l1 (j : _) (q : dot_S256x4_S4x8_S256x8_1_0_0_1_n_n.contr.Idx) : (dot_S256x4_S4x8_S256x8_1_0_0_1_n_n.lhsIdx j q 1).val = (q ⟨0, by decide⟩).val :=
  dot_S256x4_S4x8_S256x8_1_0_0_1_n_n.lhsIdx_val_of_single rfl j q
theorem dot_S256x4_S4x8_S256x8_1_0_0_1_n_n_r0 (j : _) (q : dot_S256x4_S4x8_S256x8_1_0_0_1_n_n.contr.Idx) : (dot_S256x4_S4x8_S256x8_1_0_0_1_n_n.rhsIdx j q 0).val = (q ⟨0, by decide⟩).val :=
  dot_S256x4_S4x8_S256x8_1_0_0_1_n_n.rhsIdx_val_of_single rfl j q
theorem dot_S256x4_S4x8_S256x8_1_0_0_1_n_n_r1 (j : _) (q : dot_S256x4_S4x8_S256x8_1_0_0_1_n_n.contr.Idx) : (dot_S256x4_S4x8_S256x8_1_0_0_1_n_n.rhsIdx j q 1).val = (j 1).val := by
  unfold DotDims.rhsIdx
  rw [dif_neg (show ¬(1 : Fin S4x8.rank) ∈ dot_S256x4_S4x8_S256x8_1_0_0_1_n_n.rhsBatch by decide), dif_pos (show (1 : Fin S4x8.rank) ∈ dot_S256x4_S4x8_S256x8_1_0_0_1_n_n.rhsNonContracting by decide)]
  rfl

theorem dot_S256x8_S8x1_S256x1_1_0_0_1_n_n_l0 (j : _) (q : dot_S256x8_S8x1_S256x1_1_0_0_1_n_n.contr.Idx) : (dot_S256x8_S8x1_S256x1_1_0_0_1_n_n.lhsIdx j q 0).val = (j 0).val := by
  unfold DotDims.lhsIdx
  rw [dif_neg (show ¬(0 : Fin S256x8.rank) ∈ dot_S256x8_S8x1_S256x1_1_0_0_1_n_n.lhsBatch by decide), dif_pos (show (0 : Fin S256x8.rank) ∈ dot_S256x8_S8x1_S256x1_1_0_0_1_n_n.lhsNonContracting by decide)]
  rfl
theorem dot_S256x8_S8x1_S256x1_1_0_0_1_n_n_l1 (j : _) (q : dot_S256x8_S8x1_S256x1_1_0_0_1_n_n.contr.Idx) : (dot_S256x8_S8x1_S256x1_1_0_0_1_n_n.lhsIdx j q 1).val = (q ⟨0, by decide⟩).val :=
  dot_S256x8_S8x1_S256x1_1_0_0_1_n_n.lhsIdx_val_of_single rfl j q
theorem dot_S256x8_S8x1_S256x1_1_0_0_1_n_n_r0 (j : _) (q : dot_S256x8_S8x1_S256x1_1_0_0_1_n_n.contr.Idx) : (dot_S256x8_S8x1_S256x1_1_0_0_1_n_n.rhsIdx j q 0).val = (q ⟨0, by decide⟩).val :=
  dot_S256x8_S8x1_S256x1_1_0_0_1_n_n.rhsIdx_val_of_single rfl j q
theorem dot_S256x8_S8x1_S256x1_1_0_0_1_n_n_r1 (j : _) (q : dot_S256x8_S8x1_S256x1_1_0_0_1_n_n.contr.Idx) : (dot_S256x8_S8x1_S256x1_1_0_0_1_n_n.rhsIdx j q 1).val = (j 1).val := by
  unfold DotDims.rhsIdx
  rw [dif_neg (show ¬(1 : Fin S8x1.rank) ∈ dot_S256x8_S8x1_S256x1_1_0_0_1_n_n.rhsBatch by decide), dif_pos (show (1 : Fin S8x1.rank) ∈ dot_S256x8_S8x1_S256x1_1_0_0_1_n_n.rhsNonContracting by decide)]
  rfl

/-- The logistic of a vector, at an index. -/
theorem logistic_apply {s : Shape} {φ : FTy} (a : FVec Ideal s φ) (i : s.Idx) : logistic a i = Ideal.logistic (a i) := rfl

/-! ## The accumulating stores -/

/-- This point's white store: what the accumulator held plus the block's 4096 terms of the contraction. -/
theorem pay4_apply (v3 : Vec Ideal S256x4096 .f32) (v7 : Vec Ideal S4096x4 .f32) (v10 : Vec Ideal S256x4 .f32)
    (p : Fin 256) (j : Fin 4) :
    k0_pay4 v3 v7 v10 (ix2 p j) = v10 (ix2 p j) + ∑ k : Fin 4096, v3 (ix2 p k) * v7 (ix2 k j) := by
  unfold k0_pay4 k0_pay3
  rw [shapeCast_self, shapeCast_self, addf_apply]
  refine congrArg (v10 (ix2 p j) + ·) ?_
  exact Cert.LibDotRows.matmul_zero_ix2 dot_S256x4096_S4096x4_S256x4_1_0_0_1_n_n none rfl rfl dot_S256x4096_S4096x4_S256x4_1_0_0_1_n_n_l0 dot_S256x4096_S4096x4_S256x4_1_0_0_1_n_n_l1 dot_S256x4096_S4096x4_S256x4_1_0_0_1_n_n_r0 dot_S256x4096_S4096x4_S256x4_1_0_0_1_n_n_r1 _ _ p j

/-- This point's black store: the same over the black block. -/
theorem pay5_apply (v5 : Vec Ideal S256x4096 .f32) (v7 : Vec Ideal S4096x4 .f32) (v16 : Vec Ideal S256x4 .f32)
    (p : Fin 256) (j : Fin 4) :
    k0_pay5 v5 v7 v16 (ix2 p j) = v16 (ix2 p j) + ∑ k : Fin 4096, v5 (ix2 p k) * v7 (ix2 k j) := by
  unfold k0_pay5 k0_pay3
  rw [shapeCast_self, shapeCast_self, addf_apply]
  refine congrArg (v16 (ix2 p j) + ·) ?_
  exact Cert.LibDotRows.matmul_zero_ix2 dot_S256x4096_S4096x4_S256x4_1_0_0_1_n_n none rfl rfl dot_S256x4096_S4096x4_S256x4_1_0_0_1_n_n_l0 dot_S256x4096_S4096x4_S256x4_1_0_0_1_n_n_l1 dot_S256x4096_S4096x4_S256x4_1_0_0_1_n_n_r0 dot_S256x4096_S4096x4_S256x4_1_0_0_1_n_n_r1 _ _ p j

/-- The reset stores the zero block. -/
theorem pay1_apply (i : S256x4.Idx) : k0_pay1 (F := Ideal) i = Ideal.ofBits .f32 0x00000000#32 := by
  unfold k0_pay1; rw [shapeCast_self]; rfl

theorem pay2_apply (i : S256x4.Idx) : k0_pay2 (F := Ideal) i = Ideal.ofBits .f32 0x00000000#32 := by
  unfold k0_pay2; rw [shapeCast_self]; rfl

/-! ## The epilogue -/

/-- A finished sum shifted by the bias row. -/
theorem pay8_apply (v25 : Vec Ideal S1x4 .f32) (v27 : Vec Ideal S256x4 .f32) (p : Fin 256) (j : Fin 4) :
    k0_pay8 v25 v27 (ix2 p j) = v27 (ix2 p j) + v25 (ix2 (0 : Fin 1) j) := by
  unfold k0_pay8 k0_pay7
  rw [addf_apply, broadcastTo_1b_ab_apply, shapeCast_self]

theorem pay9_apply (v25 : Vec Ideal S1x4 .f32) (v30 : Vec Ideal S256x4 .f32) (p : Fin 256) (j : Fin 4) :
    k0_pay9 v25 v30 (ix2 p j) = v30 (ix2 p j) + v25 (ix2 (0 : Fin 1) j) := by
  unfold k0_pay9 k0_pay7
  rw [addf_apply, broadcastTo_1b_ab_apply, shapeCast_self]

/-- The second mixture, t·b + (1 − t)·w, clipped. -/
theorem pay10_apply (v25 : Vec Ideal S1x4 .f32) (v27 v30 : Vec Ideal S256x4 .f32) (v33 : Vec Ideal S256x1 .f32)
    (p : Fin 256) (j : Fin 4) :
    k0_pay10 v25 v27 v30 v33 (ix2 p j)
      = Cert.Spec.clip (Cert.Spec.mix (v33 (ix2 p (0 : Fin 1))) (v30 (ix2 p j) + v25 (ix2 (0 : Fin 1) j))
          (v27 (ix2 p j) + v25 (ix2 (0 : Fin 1) j))) := by
  unfold k0_pay10
  rw [minimumf_apply, maximumf_apply, addf_apply, mulf_apply, mulf_apply, Cert.LibKeepdims.broadcastTo_a1_ab_apply,
    Cert.LibKeepdims.broadcastTo_a1_ab_apply, subf_apply, pay8_apply, pay9_apply]
  rfl

/-- The first mixture, t·w + (1 − t)·b, clipped, contracted with the first four columns of the 8 × 8 weights. -/
theorem pay13_apply (v25 : Vec Ideal S1x4 .f32) (v27 v30 : Vec Ideal S256x4 .f32) (v33 : Vec Ideal S256x1 .f32)
    (v56 : Vec Ideal S8x4 .f32) (p : Fin 256) (n : Fin 8) :
    k0_pay13 v25 v27 v30 v33 v56 (ix2 p n)
      = ∑ j : Fin 4, Cert.Spec.clip (Cert.Spec.mix (v33 (ix2 p (0 : Fin 1))) (v27 (ix2 p j) + v25 (ix2 (0 : Fin 1) j))
          (v30 (ix2 p j) + v25 (ix2 (0 : Fin 1) j))) * v56 (ix2 n j) := by
  unfold k0_pay13
  refine (Cert.LibDotRows.matmul_zero_ix2 dot_S256x4_S4x8_S256x8_1_0_0_1_n_n (some .fp32) rfl rfl dot_S256x4_S4x8_S256x8_1_0_0_1_n_n_l0 dot_S256x4_S4x8_S256x8_1_0_0_1_n_n_l1 dot_S256x4_S4x8_S256x8_1_0_0_1_n_n_r0 dot_S256x4_S4x8_S256x8_1_0_0_1_n_n_r1 _ _ p n).trans ?_
  refine Finset.sum_congr rfl fun j _ => ?_
  rw [transpose_ix2_apply, shapeCast_self, minimumf_apply, maximumf_apply, addf_apply, mulf_apply, mulf_apply,
    Cert.LibKeepdims.broadcastTo_a1_ab_apply, Cert.LibKeepdims.broadcastTo_a1_ab_apply, subf_apply, pay8_apply, pay9_apply]
  rfl

/-- The rest of the network: from the second mixture `a2`, the first half contraction `h1`, the weights and the biases
    to the blended loss. -/
theorem pay6_apply (v55 : FVec Ideal S256x4 .f32) (v59 : FVec Ideal S8x4 .f32) (v61 : FVec Ideal S1x8 .f32)
    (v63 : FVec Ideal S256x8 .f32) (v73 : Vec Ideal S1x8 .f32) (v74 : Vec Ideal S1x1 .f32) (v80 v81 : Vec Ideal S256x1 .f32)
    (p : Fin 256) :
    k0_pay6 v55 v59 v61 v63 v73 v74 v80 v81 (ix2 p (0 : Fin 1))
      = Cert.Spec.blend
          ((∑ n : Fin 8, Cert.Spec.clip ((v63 (ix2 p n) + ∑ j : Fin 4, v55 (ix2 p j) * v59 (ix2 n j)) + v61 (ix2 (0 : Fin 1) n))
              * v73 (ix2 (0 : Fin 1) n)) + v74 (ix2 (0 : Fin 1) (0 : Fin 1)))
          (v80 (ix2 p (0 : Fin 1))) (v81 (ix2 p (0 : Fin 1))) := by
  have t1 : ∀ (k : Fin 4) (x : Fin 8), transpose S4x8 [1, 0] v59 transposes_S8x4_p1_0_S4x8 (ix2 k x) = v59 (ix2 x k) :=
    fun k x => transpose_ix2_apply v59 _ k x
  have t2 : ∀ x : Fin 8, transpose S8x1 [1, 0] v73 transposes_S1x8_p1_0_S8x1 (ix2 x (0 : Fin 1)) = v73 (ix2 (0 : Fin 1) x) :=
    fun x => transpose_ix2_apply v73 _ x 0
  unfold k0_pay6
  simp only [t1, t2, addf_apply, mulf_apply, subf_apply, divf_apply, logistic_apply, minimumf_apply, maximumf_apply, broadcast_apply,
    Cert.LibDotRows.matmul_zero_ix2 dot_S256x8_S8x1_S256x1_1_0_0_1_n_n (some .fp32) rfl rfl dot_S256x8_S8x1_S256x1_1_0_0_1_n_n_l0 dot_S256x8_S8x1_S256x1_1_0_0_1_n_n_l1 dot_S256x8_S8x1_S256x1_1_0_0_1_n_n_r0 dot_S256x8_S8x1_S256x1_1_0_0_1_n_n_r1,
    Cert.LibDotRows.matmul_zero_ix2 dot_S256x4_S4x8_S256x8_1_0_0_1_n_n (some .fp32) rfl rfl dot_S256x4_S4x8_S256x8_1_0_0_1_n_n_l0 dot_S256x4_S4x8_S256x8_1_0_0_1_n_n_l1 dot_S256x4_S4x8_S256x8_1_0_0_1_n_n_r0 dot_S256x4_S4x8_S256x8_1_0_0_1_n_n_r1,
    broadcastTo_1b_ab_apply, shapeCast_self, transpose_ix2_apply]
  rfl

/-- THE EPILOGUE IS THE SPECIFICATION'S LOSS of the row's two finished feature vectors: given what each loaded block's entry
    is in terms of the row's data — the two accumulators plus the bias are the feature vectors w and b, the per-row blocks
    are the turn flag, the score and the result, the two weight blocks are the first and the last four columns of the 8 × 8
    weights, the rest are the biases and the 1 × 8 weights —, the stored loss is `lossOf`. -/
theorem epilogue_apply (x3 : Vec Ideal S1x4 .f32) (S0 S1 : Vec Ideal S256x4 .f32) (x4 x5 x6 : Vec Ideal S256x1 .f32)
    (x7 x8 : Vec Ideal S8x4 .f32) (x9 x10 : Vec Ideal S1x8 .f32) (x11 : Vec Ideal S1x1 .f32) (p : Fin 256)
    (w b : Fin 4 → EReal) (t sc rs : EReal)
    (L1 : FVec Ideal ⟨2, ![8, 8]⟩ .f32) (B1 : FVec Ideal ⟨1, ![8]⟩ .f32)
    (L2 : FVec Ideal ⟨2, ![1, 8]⟩ .f32) (B2 : FVec Ideal ⟨1, ![1]⟩ .f32)
    (hw : ∀ j, S0 (ix2 p j) + x3 (ix2 (0 : Fin 1) j) = w j) (hb : ∀ j, S1 (ix2 p j) + x3 (ix2 (0 : Fin 1) j) = b j)
    (ht : x4 (ix2 p (0 : Fin 1)) = t) (hsc : x5 (ix2 p (0 : Fin 1)) = sc) (hrs : x6 (ix2 p (0 : Fin 1)) = rs)
    (h7 : ∀ n j, x7 (ix2 n j) = L1 (ix2 n (Fin.castAdd 4 j))) (h8 : ∀ n j, x8 (ix2 n j) = L1 (ix2 n (Fin.natAdd 4 j)))
    (h9 : ∀ n, x9 (ix2 (0 : Fin 1) n) = B1 (ix1 n)) (h10 : ∀ n, x10 (ix2 (0 : Fin 1) n) = L2 (ix2 (0 : Fin 1) n))
    (h11 : x11 (ix2 (0 : Fin 1) (0 : Fin 1)) = B2 (ix1 (0 : Fin 1))) :
    k0_pay6 (k0_pay10 x3 S0 S1 x4) (k0_pay11 x8) (k0_pay12 x9) (k0_pay13 x3 S0 S1 x4 x7) x10 x11 x5 x6 (ix2 p (0 : Fin 1))
      = Cert.Spec.lossOf w b t sc rs L1 B1 L2 B2 := by
  rw [pay6_apply]
  simp only [pay13_apply, pay10_apply, k0_pay11, k0_pay12, shapeCast_self, hw, hb, ht, hsc, hrs, h7, h8, h9, h10, h11]
  rfl

end Cert.KernelSide

end
-- ==== Proof.KernelBlocks.lean ====
/-
  The blocks the body loads, as entries of the argument arrays.

  At grid point t = 20·i + k (i the batch tile, k the reduction tile) the two feature windows hold rows 256·i … 256·i + 255
  and columns 4096·k … 4096·k + 4095 of their arrays; the transposed feature weights' window holds rows 4096·k …; the
  three per-row windows (turn, score, result) hold rows 256·i …; the remaining windows hold their small arrays whole.
  Six of the windowed arrays are written by the host before the launch: the transposed feature weights, the two halves
  of the 8 × 8 weights cut along the columns at 0 and at 4, and the three biases re-laid as one-row matrices.
-/
import proofs.«155728_j31525059952895_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## Which block each window holds at a grid point -/

/-- Window 0's block index at point t. -/
theorem idx0 : ∀ t : Fin cfg0.N, win0_0.index t 0 = t.val / 20 ∧ win0_0.index t 1 = t.val % 20 :=
  (by decide +kernel : ∀ t : Fin grid0.N, win0_0.index t 0 = t.val / 20 ∧ win0_0.index t 1 = t.val % 20)

/-- Window 1's block index at point t. -/
theorem idx1 : ∀ t : Fin cfg0.N, win0_1.index t 0 = t.val / 20 ∧ win0_1.index t 1 = t.val % 20 :=
  (by decide +kernel : ∀ t : Fin grid0.N, win0_1.index t 0 = t.val / 20 ∧ win0_1.index t 1 = t.val % 20)

/-- Window 2's block index at point t. -/
theorem idx2 : ∀ t : Fin cfg0.N, win0_2.index t 0 = t.val % 20 ∧ win0_2.index t 1 = 0 :=
  (by decide +kernel : ∀ t : Fin grid0.N, win0_2.index t 0 = t.val % 20 ∧ win0_2.index t 1 = 0)

/-- Window 3's block index at point t. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Window 4's block index at point t. -/
theorem idx4 : ∀ t : Fin cfg0.N, win0_4.index t 0 = t.val / 20 ∧ win0_4.index t 1 = 0 :=
  (by decide +kernel : ∀ t : Fin grid0.N, win0_4.index t 0 = t.val / 20 ∧ win0_4.index t 1 = 0)

/-- Window 5's block index at point t. -/
theorem idx5 : ∀ t : Fin cfg0.N, win0_5.index t 0 = t.val / 20 ∧ win0_5.index t 1 = 0 :=
  (by decide +kernel : ∀ t : Fin grid0.N, win0_5.index t 0 = t.val / 20 ∧ win0_5.index t 1 = 0)

/-- Window 6's block index at point t. -/
theorem idx6 : ∀ t : Fin cfg0.N, win0_6.index t 0 = t.val / 20 ∧ win0_6.index t 1 = 0 :=
  (by decide +kernel : ∀ t : Fin grid0.N, win0_6.index t 0 = t.val / 20 ∧ win0_6.index t 1 = 0)

/-- Window 7's block index at point t. -/
theorem idx7 : ∀ t : Fin cfg0.N, win0_7.index t 0 = 0 ∧ win0_7.index t 1 = 0 :=
  (by decide +kernel : ∀ t : Fin grid0.N, win0_7.index t 0 = 0 ∧ win0_7.index t 1 = 0)

/-- Window 8's block index at point t. -/
theorem idx8 : ∀ t : Fin cfg0.N, win0_8.index t 0 = 0 ∧ win0_8.index t 1 = 0 :=
  (by decide +kernel : ∀ t : Fin grid0.N, win0_8.index t 0 = 0 ∧ win0_8.index t 1 = 0)

/-- Window 9's block index at point t. -/
theorem idx9 : ∀ t : Fin cfg0.N, win0_9.index t 0 = 0 ∧ win0_9.index t 1 = 0 :=
  (by decide +kernel : ∀ t : Fin grid0.N, win0_9.index t 0 = 0 ∧ win0_9.index t 1 = 0)

/-- Window 10's block index at point t. -/
theorem idx10 : ∀ t : Fin cfg0.N, win0_10.index t 0 = 0 ∧ win0_10.index t 1 = 0 :=
  (by decide +kernel : ∀ t : Fin grid0.N, win0_10.index t 0 = 0 ∧ win0_10.index t 1 = 0)

/-- Window 11's block index at point t. -/
theorem idx11 : ∀ t : Fin cfg0.N, win0_11.index t 0 = 0 ∧ win0_11.index t 1 = 0 :=
  (by decide +kernel : ∀ t : Fin grid0.N, win0_11.index t 0 = 0 ∧ win0_11.index t 1 = 0)

/-- Window 12's block index at point t. -/
theorem idx12 : ∀ t : Fin cfg0.N, win0_12.index t 0 = t.val / 20 ∧ win0_12.index t 1 = 0 :=
  (by decide +kernel : ∀ t : Fin grid0.N, win0_12.index t 0 = t.val / 20 ∧ win0_12.index t 1 = 0)

/-! ## The arrays the host writes before the launch -/

/-- The feature weights, transposed. -/
theorem V_v0 (c : Dev nD) : (V m c main_v0 : S81920x4.Idx → EReal)
    = transpose S81920x4 [1, 0] (m ((c : Thread nD τ).loc main_arg5)) transposes_S4x81920_S81920x4_1_0 := by
  dsimp only [Gen.V, Gen.hostOps0]; after_results

/-- Columns 0 … 3 of the 8 × 8 weights. -/
theorem V_v1 (c : Dev nD) : (V m c main_v1 : S8x4.Idx → EReal)
    = extractStridedSlice S8x4 ![0, 0] (m ((c : Thread nD τ).loc main_arg7)) slices_S8x8_S8x4_0_0 := by
  dsimp only [Gen.V, Gen.hostOps0]; after_results

/-- Columns 4 … 7 of the 8 × 8 weights. -/
theorem V_v2 (c : Dev nD) : (V m c main_v2 : S8x4.Idx → EReal)
    = extractStridedSlice S8x4 ![0, 4] (m ((c : Thread nD τ).loc main_arg7)) slices_S8x8_S8x4_0_4 := by
  dsimp only [Gen.V, Gen.hostOps0]; after_results

/-- The feature bias as a one-row matrix. -/
theorem V_v3 (c : Dev nD) : (V m c main_v3 : S1x4.Idx → EReal)
    = shapeCast S1x4 (m ((c : Thread nD τ).loc main_arg6)) shapeCasts_S4_S1x4 := by
  dsimp only [Gen.V, Gen.hostOps0]; after_results; rfl

/-- The first layer's bias as a one-row matrix. -/
theorem V_v4 (c : Dev nD) : (V m c main_v4 : S1x8.Idx → EReal)
    = shapeCast S1x8 (m ((c : Thread nD τ).loc main_arg8)) shapeCasts_S8_S1x8 := by
  dsimp only [Gen.V, Gen.hostOps0]; after_results; rfl

/-- The second layer's bias as a one-row matrix. -/
theorem V_v5 (c : Dev nD) : (V m c main_v5 : S1x1.Idx → EReal)
    = shapeCast S1x1 (m ((c : Thread nD τ).loc main_arg10)) shapeCasts_S1_S1x1 := by
  dsimp only [Gen.V, Gen.hostOps0]; after_results; rfl

/-! ## A block's entry is an entry of its array -/

/-- Window 0's block at point t, entry (a, b). -/
theorem iblk0_apply (c : Dev nD) (t : Fin cfg0.N) (a : Fin 256) (b : Fin 4096) (i : Fin 2048) (hi : i.val = 256 * (t.val / 20) + a.val) (j : Fin 81920) (hj : j.val = 4096 * (t.val % 20) + b.val) :
    (iblk m c 0 t : Vec Ideal S256x4096 .f32) (ix2 a b) = (V m c main_arg0 : S2048x81920.Idx → EReal) (ix2 i j) := by
  unfold iblk
  rw [View.read_apply]
  show (V m c main_arg0 : S2048x81920.Idx → EReal) _ = _
  refine congrArg (V m c main_arg0 : S2048x81920.Idx → EReal) (funext fun ax => Fin.ext ?_)
  match ax with
  | ⟨0, _⟩ => show win0_0.index t 0 * 256 + 1 * a.val = i.val; rw [(idx0 t).1, hi]; omega
  | ⟨1, _⟩ => show win0_0.index t 1 * 4096 + 1 * b.val = j.val; rw [(idx0 t).2, hj]; omega

/-- Window 1's block at point t, entry (a, b). -/
theorem iblk1_apply (c : Dev nD) (t : Fin cfg0.N) (a : Fin 256) (b : Fin 4096) (i : Fin 2048) (hi : i.val = 256 * (t.val / 20) + a.val) (j : Fin 81920) (hj : j.val = 4096 * (t.val % 20) + b.val) :
    (iblk m c 1 t : Vec Ideal S256x4096 .f32) (ix2 a b) = (V m c main_arg1 : S2048x81920.Idx → EReal) (ix2 i j) := by
  unfold iblk
  rw [View.read_apply]
  show (V m c main_arg1 : S2048x81920.Idx → EReal) _ = _
  refine congrArg (V m c main_arg1 : S2048x81920.Idx → EReal) (funext fun ax => Fin.ext ?_)
  match ax with
  | ⟨0, _⟩ => show win0_1.index t 0 * 256 + 1 * a.val = i.val; rw [(idx1 t).1, hi]; omega
  | ⟨1, _⟩ => show win0_1.index t 1 * 4096 + 1 * b.val = j.val; rw [(idx1 t).2, hj]; omega

/-- Window 2's block at point t, entry (a, b). -/
theorem iblk2_apply (c : Dev nD) (t : Fin cfg0.N) (a : Fin 4096) (b : Fin 4) (i : Fin 81920) (hi : i.val = 4096 * (t.val % 20) + a.val) :
    (iblk m c 2 t : Vec Ideal S4096x4 .f32) (ix2 a b) = (V m c main_v0 : S81920x4.Idx → EReal) (ix2 i b) := by
  unfold iblk
  rw [View.read_apply]
  show (V m c main_v0 : S81920x4.Idx → EReal) _ = _
  refine congrArg (V m c main_v0 : S81920x4.Idx → EReal) (funext fun ax => Fin.ext ?_)
  match ax with
  | ⟨0, _⟩ => show win0_2.index t 0 * 4096 + 1 * a.val = i.val; rw [(idx2 t).1, hi]; omega
  | ⟨1, _⟩ => show win0_2.index t 1 * 4 + 1 * b.val = b.val; rw [(idx2 t).2]; omega

/-- Window 3's block at point t, entry (a, b). -/
theorem iblk3_apply (c : Dev nD) (t : Fin cfg0.N) (a : Fin 1) (b : Fin 4) :
    (iblk m c 3 t : Vec Ideal S1x4 .f32) (ix2 a b) = (V m c main_v3 : S1x4.Idx → EReal) (ix2 a b) := by
  unfold iblk
  rw [View.read_apply]
  show (V m c main_v3 : S1x4.Idx → EReal) _ = _
  refine congrArg (V m c main_v3 : S1x4.Idx → EReal) (funext fun ax => Fin.ext ?_)
  match ax with
  | ⟨0, _⟩ => show win0_3.index t 0 * 1 + 1 * a.val = a.val; rw [(idx3 t).1]; omega
  | ⟨1, _⟩ => show win0_3.index t 1 * 4 + 1 * b.val = b.val; rw [(idx3 t).2]; omega

/-- Window 4's block at point t, entry (a, b). -/
theorem iblk4_apply (c : Dev nD) (t : Fin cfg0.N) (a : Fin 256) (b : Fin 1) (i : Fin 2048) (hi : i.val = 256 * (t.val / 20) + a.val) :
    (iblk m c 4 t : Vec Ideal S256x1 .f32) (ix2 a b) = (V m c main_arg2 : S2048x1.Idx → EReal) (ix2 i b) := by
  unfold iblk
  rw [View.read_apply]
  show (V m c main_arg2 : S2048x1.Idx → EReal) _ = _
  refine congrArg (V m c main_arg2 : S2048x1.Idx → EReal) (funext fun ax => Fin.ext ?_)
  match ax with
  | ⟨0, _⟩ => show win0_4.index t 0 * 256 + 1 * a.val = i.val; rw [(idx4 t).1, hi]; omega
  | ⟨1, _⟩ => show win0_4.index t 1 * 1 + 1 * b.val = b.val; rw [(idx4 t).2]; omega

/-- Window 5's block at point t, entry (a, b). -/
theorem iblk5_apply (c : Dev nD) (t : Fin cfg0.N) (a : Fin 256) (b : Fin 1) (i : Fin 2048) (hi : i.val = 256 * (t.val / 20) + a.val) :
    (iblk m c 5 t : Vec Ideal S256x1 .f32) (ix2 a b) = (V m c main_arg3 : S2048x1.Idx → EReal) (ix2 i b) := by
  unfold iblk
  rw [View.read_apply]
  show (V m c main_arg3 : S2048x1.Idx → EReal) _ = _
  refine congrArg (V m c main_arg3 : S2048x1.Idx → EReal) (funext fun ax => Fin.ext ?_)
  match ax with
  | ⟨0, _⟩ => show win0_5.index t 0 * 256 + 1 * a.val = i.val; rw [(idx5 t).1, hi]; omega
  | ⟨1, _⟩ => show win0_5.index t 1 * 1 + 1 * b.val = b.val; rw [(idx5 t).2]; omega

/-- Window 6's block at point t, entry (a, b). -/
theorem iblk6_apply (c : Dev nD) (t : Fin cfg0.N) (a : Fin 256) (b : Fin 1) (i : Fin 2048) (hi : i.val = 256 * (t.val / 20) + a.val) :
    (iblk m c 6 t : Vec Ideal S256x1 .f32) (ix2 a b) = (V m c main_arg4 : S2048x1.Idx → EReal) (ix2 i b) := by
  unfold iblk
  rw [View.read_apply]
  show (V m c main_arg4 : S2048x1.Idx → EReal) _ = _
  refine congrArg (V m c main_arg4 : S2048x1.Idx → EReal) (funext fun ax => Fin.ext ?_)
  match ax with
  | ⟨0, _⟩ => show win0_6.index t 0 * 256 + 1 * a.val = i.val; rw [(idx6 t).1, hi]; omega
  | ⟨1, _⟩ => show win0_6.index t 1 * 1 + 1 * b.val = b.val; rw [(idx6 t).2]; omega

/-- Window 7's block at point t, entry (a, b). -/
theorem iblk7_apply (c : Dev nD) (t : Fin cfg0.N) (a : Fin 8) (b : Fin 4) :
    (iblk m c 7 t : Vec Ideal S8x4 .f32) (ix2 a b) = (V m c main_v1 : S8x4.Idx → EReal) (ix2 a b) := by
  unfold iblk
  rw [View.read_apply]
  show (V m c main_v1 : S8x4.Idx → EReal) _ = _
  refine congrArg (V m c main_v1 : S8x4.Idx → EReal) (funext fun ax => Fin.ext ?_)
  match ax with
  | ⟨0, _⟩ => show win0_7.index t 0 * 8 + 1 * a.val = a.val; rw [(idx7 t).1]; omega
  | ⟨1, _⟩ => show win0_7.index t 1 * 4 + 1 * b.val = b.val; rw [(idx7 t).2]; omega

/-- Window 8's block at point t, entry (a, b). -/
theorem iblk8_apply (c : Dev nD) (t : Fin cfg0.N) (a : Fin 8) (b : Fin 4) :
    (iblk m c 8 t : Vec Ideal S8x4 .f32) (ix2 a b) = (V m c main_v2 : S8x4.Idx → EReal) (ix2 a b) := by
  unfold iblk
  rw [View.read_apply]
  show (V m c main_v2 : S8x4.Idx → EReal) _ = _
  refine congrArg (V m c main_v2 : S8x4.Idx → EReal) (funext fun ax => Fin.ext ?_)
  match ax with
  | ⟨0, _⟩ => show win0_8.index t 0 * 8 + 1 * a.val = a.val; rw [(idx8 t).1]; omega
  | ⟨1, _⟩ => show win0_8.index t 1 * 4 + 1 * b.val = b.val; rw [(idx8 t).2]; omega

/-- Window 9's block at point t, entry (a, b). -/
theorem iblk9_apply (c : Dev nD) (t : Fin cfg0.N) (a : Fin 1) (b : Fin 8) :
    (iblk m c 9 t : Vec Ideal S1x8 .f32) (ix2 a b) = (V m c main_v4 : S1x8.Idx → EReal) (ix2 a b) := by
  unfold iblk
  rw [View.read_apply]
  show (V m c main_v4 : S1x8.Idx → EReal) _ = _
  refine congrArg (V m c main_v4 : S1x8.Idx → EReal) (funext fun ax => Fin.ext ?_)
  match ax with
  | ⟨0, _⟩ => show win0_9.index t 0 * 1 + 1 * a.val = a.val; rw [(idx9 t).1]; omega
  | ⟨1, _⟩ => show win0_9.index t 1 * 8 + 1 * b.val = b.val; rw [(idx9 t).2]; omega

/-- Window 10's block at point t, entry (a, b). -/
theorem iblk10_apply (c : Dev nD) (t : Fin cfg0.N) (a : Fin 1) (b : Fin 8) :
    (iblk m c 10 t : Vec Ideal S1x8 .f32) (ix2 a b) = (V m c main_arg9 : S1x8.Idx → EReal) (ix2 a b) := by
  unfold iblk
  rw [View.read_apply]
  show (V m c main_arg9 : S1x8.Idx → EReal) _ = _
  refine congrArg (V m c main_arg9 : S1x8.Idx → EReal) (funext fun ax => Fin.ext ?_)
  match ax with
  | ⟨0, _⟩ => show win0_10.index t 0 * 1 + 1 * a.val = a.val; rw [(idx10 t).1]; omega
  | ⟨1, _⟩ => show win0_10.index t 1 * 8 + 1 * b.val = b.val; rw [(idx10 t).2]; omega

/-- Window 11's block at point t, entry (a, b). -/
theorem iblk11_apply (c : Dev nD) (t : Fin cfg0.N) (a : Fin 1) (b : Fin 1) :
    (iblk m c 11 t : Vec Ideal S1x1 .f32) (ix2 a b) = (V m c main_v5 : S1x1.Idx → EReal) (ix2 a b) := by
  unfold iblk
  rw [View.read_apply]
  show (V m c main_v5 : S1x1.Idx → EReal) _ = _
  refine congrArg (V m c main_v5 : S1x1.Idx → EReal) (funext fun ax => Fin.ext ?_)
  match ax with
  | ⟨0, _⟩ => show win0_11.index t 0 * 1 + 1 * a.val = a.val; rw [(idx11 t).1]; omega
  | ⟨1, _⟩ => show win0_11.index t 1 * 1 + 1 * b.val = b.val; rw [(idx11 t).2]; omega

end Cert.KernelSide

end
-- ==== Proof.LibTileSum.lean ====
import Mathlib.Data.EReal.Operations
import Mathlib.Algebra.BigOperators.Fin
import Mathlib.Algebra.BigOperators.Ring.Finset
import Mathlib.Logic.Equiv.Fin.Basic

/-!
# Sums over a grid of tiles

Pure algebra, no program: a sum over `n * m` points regrouped as `n` blocks of `m` points, the
two contractions `Sᵀ·X` and `Sᵀ·A·S` computed tile by tile against the same contractions computed
whole, and a running accumulator over the points of a grid against the double sum over the grid.

The regrouping laws hold in any additive commutative monoid, so in particular in the extended
reals.  The law for `Sᵀ·A·S` moves a factor across a sum, which the extended reals do not allow at
`±∞`; it is proved for real-valued `S` and `A` and transported along the coercion `ℝ → EReal`.
-/

namespace Cert.TileSum

open Finset

variable {M : Type*} [AddCommMonoid M]

/-! ## Regrouping a sum over `n * m` points into `n` blocks of `m` -/

/-- For `i < n` and `r < m`, the point `m * i + r` lies below `n * m`. -/
theorem tile_lt {n m : ℕ} (i : Fin n) (r : Fin m) : m * i.1 + r.1 < n * m :=
  calc m * i.1 + r.1 < m * i.1 + m := Nat.add_lt_add_left r.2 _
    _ = (i.1 + 1) * m := by rw [Nat.succ_mul, Nat.mul_comm]
    _ ≤ n * m := Nat.mul_le_mul_right _ i.2

/-- The point `m * i + r` of block `i`, offset `r`, as an element of `Fin (n * m)`. -/
def tile {n m : ℕ} (i : Fin n) (r : Fin m) : Fin (n * m) := ⟨m * i.1 + r.1, tile_lt i r⟩

@[simp] theorem tile_val {n m : ℕ} (i : Fin n) (r : Fin m) : (tile i r).1 = m * i.1 + r.1 := rfl

/-- `tile i r` is the image of `(i, r)` under the standard bijection `Fin n × Fin m ≃ Fin (n * m)`. -/
theorem tile_eq_finProdFinEquiv {n m : ℕ} (i : Fin n) (r : Fin m) :
    tile i r = finProdFinEquiv (i, r) :=
  Fin.ext (by simp [finProdFinEquiv, Nat.add_comm])

/-- **Regrouping.** `Σ_{i<n} Σ_{r<m} f (m*i + r) = Σ_{k<n*m} f k`, for `f` on `Fin (n * m)`. -/
theorem sum_tile (n m : ℕ) (f : Fin (n * m) → M) :
    ∑ i : Fin n, ∑ r : Fin m, f (tile i r) = ∑ k : Fin (n * m), f k := by
  rw [← Fintype.sum_prod_type']
  exact Fintype.sum_equiv finProdFinEquiv _ _ fun x => by rw [tile_eq_finProdFinEquiv]

/-- **Regrouping**, for a function on `ℕ`: `Σ_{i<n} Σ_{r<m} f (m*i + r) = Σ_{k<n*m} f k`. -/
theorem sum_tile_nat (n m : ℕ) (f : ℕ → M) :
    ∑ i : Fin n, ∑ r : Fin m, f (m * i.1 + r.1) = ∑ k : Fin (n * m), f k.1 :=
  sum_tile n m fun k => f k.1

/-- **Regrouping**, over ranges of `ℕ`: `Σ_{i<n} Σ_{r<m} f (m*i + r) = Σ_{k<n*m} f k`. -/
theorem sum_tile_range (n m : ℕ) (f : ℕ → M) :
    ∑ i ∈ range n, ∑ r ∈ range m, f (m * i + r) = ∑ k ∈ range (n * m), f k := by
  rw [Finset.sum_range, Finset.sum_range fun k => f k]
  simp only [Finset.sum_range fun r => f (m * _ + r)]
  exact sum_tile_nat n m f

/-- Regrouping with the block and the offset given separately:
`Σ_{k<n*m} G (k / m) (k % m) = Σ_{i<n} Σ_{r<m} G i r`. -/
theorem sum_div_mod (n m : ℕ) (G : ℕ → ℕ → M) :
    ∑ k : Fin (n * m), G (k.1 / m) (k.1 % m) = ∑ i : Fin n, ∑ r : Fin m, G i.1 r.1 := by
  rw [← sum_tile_nat n m fun k => G (k / m) (k % m)]
  refine Finset.sum_congr rfl fun i _ => Finset.sum_congr rfl fun r _ => ?_
  have hm : 0 < m := Nat.lt_of_le_of_lt (Nat.zero_le _) r.2
  rw [Nat.mul_add_div hm, Nat.div_eq_of_lt r.2, Nat.add_zero, Nat.mul_add_mod,
    Nat.mod_eq_of_lt r.2]

/-- 8192 rows as 8 tiles of 1024 rows: `Σ_{i<8} Σ_{r<1024} f (1024*i + r) = Σ_{k<8192} f k`. -/
theorem sum_8_1024 (f : Fin 8192 → M) :
    ∑ i : Fin 8, ∑ r : Fin 1024, f ⟨1024 * i.1 + r.1, by omega⟩ = ∑ k : Fin 8192, f k :=
  sum_tile 8 1024 f

/-- 8192 columns as 4 tiles of 2048 columns: `Σ_{j<4} Σ_{c<2048} f (2048*j + c) = Σ_{k<8192} f k`. -/
theorem sum_4_2048 (f : Fin 8192 → M) :
    ∑ j : Fin 4, ∑ c : Fin 2048, f ⟨2048 * j.1 + c.1, by omega⟩ = ∑ k : Fin 8192, f k :=
  sum_tile 4 2048 f

/-- 32 grid points as 8 rows of 4: `Σ_{i<8} Σ_{j<4} g (4*i + j) = Σ_{t<32} g t`. -/
theorem sum_8_4 (g : Fin 32 → M) :
    ∑ i : Fin 8, ∑ j : Fin 4, g ⟨4 * i.1 + j.1, by omega⟩ = ∑ t : Fin 32, g t :=
  sum_tile 8 4 g

/-- `sum_8_1024` for a function on `ℕ`. -/
theorem sum_8_1024_nat (f : ℕ → M) :
    ∑ i : Fin 8, ∑ r : Fin 1024, f (1024 * i.1 + r.1) = ∑ k : Fin 8192, f k.1 :=
  sum_tile_nat 8 1024 f

/-- `sum_4_2048` for a function on `ℕ`. -/
theorem sum_4_2048_nat (f : ℕ → M) :
    ∑ j : Fin 4, ∑ c : Fin 2048, f (2048 * j.1 + c.1) = ∑ k : Fin 8192, f k.1 :=
  sum_tile_nat 4 2048 f

/-! ## The contraction `Sᵀ·X`, tile by tile -/

/-- **`x1`.** `Σ_{i<n} Σ_{r<m} S (m*i+r) * X (m*i+r) = Σ_{k<n*m} S k * X k` in the extended reals
(or any additive commutative monoid with a product): only a regrouping of one sum, so no
finiteness is needed. -/
theorem x1_tiles {E : Type*} [AddCommMonoid E] [Mul E] (n m : ℕ) (S X : ℕ → E) :
    ∑ i : Fin n, ∑ r : Fin m, S (m * i.1 + r.1) * X (m * i.1 + r.1)
      = ∑ k : Fin (n * m), S k.1 * X k.1 :=
  sum_tile_nat n m fun k => S k * X k

/-- **`x1K = x1R`**: the 8 row tiles of 1024 rows against the whole contraction over 8192 rows,
in the extended reals, with no hypothesis. -/
theorem x1K_eq_x1R {ι κ : Type*} (S : ℕ → ι → EReal) (X : ℕ → κ → EReal) (a : ι) (d : κ) :
    ∑ i : Fin 8, ∑ r : Fin 1024, S (1024 * i.1 + r.1) a * X (1024 * i.1 + r.1) d
      = ∑ k : Fin 8192, S k.1 a * X k.1 d :=
  x1_tiles 8 1024 (fun k => S k a) (fun k => X k d)

/-! ## The contraction `Sᵀ·A·S`, tile by tile -/

/-- **`adj` over a commutative semiring.**  With rows in `n` tiles of `m` and columns in `p` tiles
of `q`,
`Σ_{i<n} Σ_{j<p} Σ_{c<q} (Σ_{r<m} u (m*i+r) * α (m*i+r) (q*j+c)) * v (q*j+c)
  = Σ_{c<p*q} (Σ_{r<n*m} u r * α r c) * v c`:
regroup the columns, distribute `v c` over the inner sum, exchange the sums over row tiles and
columns, regroup the rows, and factor `v c` out again. -/
theorem adj_tiles {R : Type*} [CommSemiring R] (n m p q : ℕ) (u v : ℕ → R) (α : ℕ → ℕ → R) :
    ∑ i : Fin n, ∑ j : Fin p, ∑ c : Fin q,
        (∑ r : Fin m, u (m * i.1 + r.1) * α (m * i.1 + r.1) (q * j.1 + c.1)) * v (q * j.1 + c.1)
      = ∑ c : Fin (p * q), (∑ r : Fin (n * m), u r.1 * α r.1 c.1) * v c.1 :=
  calc ∑ i : Fin n, ∑ j : Fin p, ∑ c : Fin q,
        (∑ r : Fin m, u (m * i.1 + r.1) * α (m * i.1 + r.1) (q * j.1 + c.1)) * v (q * j.1 + c.1)
      = ∑ i : Fin n, ∑ c : Fin (p * q),
          (∑ r : Fin m, u (m * i.1 + r.1) * α (m * i.1 + r.1) c.1) * v c.1 :=
        Finset.sum_congr rfl fun i _ =>
          sum_tile_nat p q fun c => (∑ r : Fin m, u (m * i.1 + r.1) * α (m * i.1 + r.1) c) * v c
    _ = ∑ c : Fin (p * q), ∑ i : Fin n, ∑ r : Fin m,
          u (m * i.1 + r.1) * α (m * i.1 + r.1) c.1 * v c.1 := by
        rw [Finset.sum_comm]; simp only [Finset.sum_mul]
    _ = ∑ c : Fin (p * q), ∑ r : Fin (n * m), u r.1 * α r.1 c.1 * v c.1 :=
        Finset.sum_congr rfl fun c _ => sum_tile_nat n m fun r => u r * α r c.1 * v c.1
    _ = ∑ c : Fin (p * q), (∑ r : Fin (n * m), u r.1 * α r.1 c.1) * v c.1 := by
        simp only [Finset.sum_mul]

/-- The coercion `ℝ → EReal` commutes with finite sums. -/
@[norm_cast]
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- **`adj` in the extended reals, real-valued data.**  `adj_tiles` for `u`, `v`, `α` that are
coercions of real-valued functions: both sides are coercions of the corresponding real sums. -/
theorem adj_tiles_coe (n m p q : ℕ) (u v : ℕ → ℝ) (α : ℕ → ℕ → ℝ) :
    ∑ i : Fin n, ∑ j : Fin p, ∑ c : Fin q,
        (∑ r : Fin m, (u (m * i.1 + r.1) : EReal) * (α (m * i.1 + r.1) (q * j.1 + c.1) : EReal))
          * (v (q * j.1 + c.1) : EReal)
      = ∑ c : Fin (p * q), (∑ r : Fin (n * m), (u r.1 : EReal) * (α r.1 c.1 : EReal))
          * (v c.1 : EReal) := by
  have h := congrArg Real.toEReal (adj_tiles n m p q u v α)
  simpa only [coe_sum, EReal.coe_mul] using h

/-- **`adjK = adjR`**: 8 × 4 tiles of 1024 × 2048 against the whole contraction over
8192 × 8192, in the extended reals, for `S` and `A` the coercions of real-valued `s` and `α`. -/
theorem adjK_eq_adjR {ι : Type*} (s : ℕ → ι → ℝ) (α : ℕ → ℕ → ℝ) (a b : ι) :
    ∑ i : Fin 8, ∑ j : Fin 4, ∑ c : Fin 2048,
        (∑ r : Fin 1024, (s (1024 * i.1 + r.1) a : EReal)
            * (α (1024 * i.1 + r.1) (2048 * j.1 + c.1) : EReal))
          * (s (2048 * j.1 + c.1) b : EReal)
      = ∑ c : Fin 8192, (∑ r : Fin 8192, (s r.1 a : EReal) * (α r.1 c.1 : EReal))
          * (s c.1 b : EReal) :=
  adj_tiles_coe 8 1024 4 2048 (fun k => s k a) (fun k => s k b) α

/-- **`adjK = adjR`, finiteness as a hypothesis.**  The same law for extended-real `S` and `A`
every entry of which is the coercion of some real. -/
theorem adjK_eq_adjR_of_real {ι : Type*} (S : ℕ → ι → EReal) (A : ℕ → ℕ → EReal)
    (hS : ∀ k a, ∃ x : ℝ, S k a = (x : EReal)) (hA : ∀ k l, ∃ x : ℝ, A k l = (x : EReal))
    (a b : ι) :
    ∑ i : Fin 8, ∑ j : Fin 4, ∑ c : Fin 2048,
        (∑ r : Fin 1024, S (1024 * i.1 + r.1) a * A (1024 * i.1 + r.1) (2048 * j.1 + c.1))
          * S (2048 * j.1 + c.1) b
      = ∑ c : Fin 8192, (∑ r : Fin 8192, S r.1 a * A r.1 c.1) * S c.1 b := by
  choose s hs using hS
  choose α hα using hA
  simp only [hs, hα]
  exact adjK_eq_adjR s α a b

/-! ## The running accumulator over the points of a grid -/

/-- The accumulator after `t` points: it starts at `0` and point `t` adds `g t`. -/
def acc (g : ℕ → M) : ℕ → M
  | 0 => 0
  | t + 1 => acc g t + g t

@[simp] theorem acc_zero (g : ℕ → M) : acc g 0 = 0 := rfl

@[simp] theorem acc_succ (g : ℕ → M) (t : ℕ) : acc g (t + 1) = acc g t + g t := rfl

/-- After `n` points the accumulator holds `Σ_{t<n} g t`. -/
theorem acc_eq_sum_range (g : ℕ → M) (n : ℕ) : acc g n = ∑ t ∈ range n, g t := by
  induction n with
  | zero => rfl
  | succ n ih => rw [acc_succ, ih, Finset.sum_range_succ]

/-- After `n` points the accumulator holds `Σ_{t : Fin n} g t`. -/
theorem acc_eq_sum (g : ℕ → M) (n : ℕ) : acc g n = ∑ t : Fin n, g t.1 := by
  rw [acc_eq_sum_range, Finset.sum_range]

/-- After the `n * m` points of an `n × m` grid visited row by row (point `t = m*i + j`), the
accumulator holds the double sum over the grid. -/
theorem acc_grid (g : ℕ → M) (n m : ℕ) :
    acc g (n * m) = ∑ i : Fin n, ∑ j : Fin m, g (m * i.1 + j.1) := by
  rw [acc_eq_sum, sum_tile_nat]

/-- The same with the contribution of point `t` given by its row `t / m` and column `t % m`. -/
theorem acc_grid_div_mod (G : ℕ → ℕ → M) (n m : ℕ) :
    acc (fun t => G (t / m) (t % m)) (n * m) = ∑ i : Fin n, ∑ j : Fin m, G i.1 j.1 := by
  rw [acc_eq_sum, sum_div_mod]

/-- The 32 points of the 8 × 4 grid: `acc g 32 = Σ_{t<32} g t`. -/
theorem acc_32 (g : ℕ → M) : acc g 32 = ∑ t : Fin 32, g t.1 := acc_eq_sum g 32

/-- The 32 points of the 8 × 4 grid: `acc g 32 = Σ_{i<8} Σ_{j<4} g (4*i + j)`. -/
theorem acc_32_grid (g : ℕ → M) : acc g 32 = ∑ i : Fin 8, ∑ j : Fin 4, g (4 * i.1 + j.1) :=
  acc_grid g 8 4

/-- The accumulator to which only the points satisfying `p` add. -/
def accIf (p : ℕ → Prop) [DecidablePred p] (h : ℕ → M) : ℕ → M
  | 0 => 0
  | t + 1 => if p t then accIf p h t + h t else accIf p h t

@[simp] theorem accIf_zero (p : ℕ → Prop) [DecidablePred p] (h : ℕ → M) : accIf p h 0 = 0 := rfl

@[simp] theorem accIf_succ (p : ℕ → Prop) [DecidablePred p] (h : ℕ → M) (t : ℕ) :
    accIf p h (t + 1) = if p t then accIf p h t + h t else accIf p h t := rfl

/-- A point that does not add, adds `0`. -/
theorem accIf_eq_acc (p : ℕ → Prop) [DecidablePred p] (h : ℕ → M) (n : ℕ) :
    accIf p h n = acc (fun t => if p t then h t else 0) n := by
  induction n with
  | zero => rfl
  | succ n ih =>
    rw [accIf_succ, acc_succ, ih]
    by_cases hp : p n
    · rw [if_pos hp, if_pos hp]
    · rw [if_neg hp, if_neg hp, add_zero]

/-- Over an `n × m` grid with `0 < m`, if only the first point of each row (`t % m = 0`) adds, the
accumulator ends with `Σ_{i<n} h (m*i)`. -/
theorem accIf_mod_grid (h : ℕ → M) (n m : ℕ) (hm : 0 < m) :
    accIf (fun t => t % m = 0) h (n * m) = ∑ i : Fin n, h (m * i.1) := by
  rw [accIf_eq_acc, acc_grid]
  refine Finset.sum_congr rfl fun i _ => ?_
  beta_reduce
  rw [Finset.sum_eq_single (⟨0, hm⟩ : Fin m)]
  · rw [Nat.add_zero, Nat.mul_mod_right, if_pos rfl]
  · intro j _ hj
    have hne : (m * i.1 + j.1) % m ≠ 0 := by
      rw [Nat.mul_add_mod, Nat.mod_eq_of_lt j.2]
      exact fun h0 => hj (Fin.ext h0)
    rw [if_neg hne]
  · intro h0
    exact absurd (Finset.mem_univ _) h0

/-- The 8 × 4 grid, only the points with `t % 4 = 0` adding: the accumulator ends with
`Σ_{i<8} h (4*i)`. -/
theorem accIf_32 (h : ℕ → M) :
    accIf (fun t => t % 4 = 0) h 32 = ∑ i : Fin 8, h (4 * i.1) :=
  accIf_mod_grid h 8 4 (by decide)

/-- The same with the contribution of a row's first point given by the row `t / m` alone. -/
theorem accIf_mod_grid_div (H : ℕ → M) (n m : ℕ) (hm : 0 < m) :
    accIf (fun t => t % m = 0) (fun t => H (t / m)) (n * m) = ∑ i : Fin n, H i.1 := by
  rw [accIf_mod_grid _ n m hm]
  refine Finset.sum_congr rfl fun i _ => ?_
  beta_reduce
  rw [Nat.mul_div_cancel_left _ hm]

/-! ### The accumulator as a sequence of observed values

The same laws for any sequence `f` of observed accumulator values that obeys the step equation on
the first `N` points, with the accumulator either starting at `0` or being cleared by the first
point (whatever it held before). -/

/-- A sequence that starts at `0` and whose step `t < N` adds `g t` is the accumulator up to `N`. -/
theorem eq_acc_of_step (N : ℕ) (f g : ℕ → M) (h0 : f 0 = 0)
    (hs : ∀ t, t < N → f (t + 1) = f t + g t) : ∀ n, n ≤ N → f n = acc g n := by
  intro n
  induction n with
  | zero => intro _; exact h0
  | succ n ih => intro hn; rw [hs n hn, ih (Nat.le_of_succ_le hn), acc_succ]

/-- The same when the sequence starts anywhere and the first point, instead of adding to what it
finds, leaves `g 0` (the accumulator is cleared at the first point). -/
theorem eq_acc_of_step_reset (N : ℕ) (f g : ℕ → M) (h1 : f 1 = g 0)
    (hs : ∀ t, 0 < t → t < N → f (t + 1) = f t + g t) :
    ∀ n, 0 < n → n ≤ N → f n = acc g n := by
  intro n
  induction n with
  | zero => intro h; exact absurd h (Nat.lt_irrefl 0)
  | succ n ih =>
    intro _ hn
    rcases Nat.eq_zero_or_pos n with rfl | hpos
    · rw [h1, acc_succ, acc_zero, zero_add]
    · rw [hs n hpos hn, ih hpos (Nat.le_of_succ_le hn), acc_succ]

/-- A sequence that starts at `0` and whose step `t < N` adds `h t` exactly when `p t` is the
conditional accumulator up to `N`. -/
theorem eq_accIf_of_step (N : ℕ) (p : ℕ → Prop) [DecidablePred p] (f h : ℕ → M) (h0 : f 0 = 0)
    (hs : ∀ t, t < N → f (t + 1) = if p t then f t + h t else f t) :
    ∀ n, n ≤ N → f n = accIf p h n := by
  intro n
  induction n with
  | zero => intro _; exact h0
  | succ n ih => intro hn; rw [hs n hn, ih (Nat.le_of_succ_le hn), accIf_succ]

/-- The same when the first point (which satisfies `p`) clears the accumulator before adding. -/
theorem eq_accIf_of_step_reset (N : ℕ) (p : ℕ → Prop) [DecidablePred p] (f h : ℕ → M)
    (hp0 : p 0) (h1 : f 1 = h 0)
    (hs : ∀ t, 0 < t → t < N → f (t + 1) = if p t then f t + h t else f t) :
    ∀ n, 0 < n → n ≤ N → f n = accIf p h n := by
  intro n
  induction n with
  | zero => intro h; exact absurd h (Nat.lt_irrefl 0)
  | succ n ih =>
    intro _ hn
    rcases Nat.eq_zero_or_pos n with rfl | hpos
    · rw [h1, accIf_succ, if_pos hp0, accIf_zero, zero_add]
    · rw [hs n hpos hn, ih hpos (Nat.le_of_succ_le hn), accIf_succ]

/-- The accumulator is the left fold of `+` over the points `0, …, n-1` in order. -/
theorem foldl_range_eq_acc (g : ℕ → M) (n : ℕ) :
    (List.range n).foldl (fun s t => s + g t) 0 = acc g n := by
  induction n with
  | zero => rfl
  | succ n ih => rw [List.range_succ, List.foldl_append, ih]; rfl

/-- For `g` given on `Fin n` only: the accumulator of its extension by `0` ends with
`Σ_{t : Fin n} g t`. -/
theorem acc_extend_eq_sum {n : ℕ} (g : Fin n → M) :
    acc (fun t => if h : t < n then g ⟨t, h⟩ else 0) n = ∑ t : Fin n, g t := by
  rw [acc_eq_sum]
  refine Finset.sum_congr rfl fun t _ => ?_
  rw [dif_pos t.2]

/-! ## Extended reals that are real numbers -/

/-- An extended real that is the coercion of a real number, that is, neither `+∞` nor `-∞`. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

/-- Being a real number is being different from both infinities. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The sum of two reals is real. -/
theorem IsReal.add {x y : EReal} : IsReal x → IsReal y → IsReal (x + y)
  | ⟨a, ha⟩, ⟨b, hb⟩ => ⟨a + b, by rw [ha, hb, EReal.coe_add]⟩

/-- The product of two reals is real. -/
theorem IsReal.mul {x y : EReal} : IsReal x → IsReal y → IsReal (x * y)
  | ⟨a, ha⟩, ⟨b, hb⟩ => ⟨a * b, by rw [ha, hb, EReal.coe_mul]⟩

/-- A finite sum of reals is real. -/
theorem IsReal.sum {ι : Type*} (s : Finset ι) (f : ι → EReal) (h : ∀ i ∈ s, IsReal (f i)) :
    IsReal (∑ i ∈ s, f i) :=
  Finset.sum_induction f IsReal (fun _ _ => IsReal.add) isReal_zero h

/-- A signed integer word converted exactly is a real number. -/
theorem isReal_toInt {w : ℕ} (b : BitVec w) : IsReal ((b.toInt : ℝ) : EReal) := ⟨_, rfl⟩

/-- An unsigned integer word converted exactly is a real number. -/
theorem isReal_toNat {w : ℕ} (b : BitVec w) : IsReal ((b.toNat : ℝ) : EReal) := ⟨_, rfl⟩

/-- A one-hot entry, a condition read as `1` or `0`, is a real number. -/
theorem isReal_ite (c : Prop) [Decidable c] : IsReal (if c then (1 : EReal) else 0) := by
  by_cases hc : c
  · rw [if_pos hc]; exact isReal_one
  · rw [if_neg hc]; exact isReal_zero

/-- A one-hot entry, a one-bit word read unsigned, is a real number (and is `0` or `1`). -/
theorem isReal_bit (b : BitVec 1) : IsReal ((b.toNat : ℝ) : EReal) := isReal_toNat b

/-! ## The two laws end to end: accumulator over the 8 × 4 grid against the whole contraction -/

/-- **`adjK = adjR` for real entries.**  The law `adjK_eq_adjR` for extended-real `S` and `A` all of
whose entries are real numbers. -/
theorem adjK_eq_adjR_of_isReal {ι : Type*} (S : ℕ → ι → EReal) (A : ℕ → ℕ → EReal)
    (hS : ∀ k a, IsReal (S k a)) (hA : ∀ k l, IsReal (A k l)) (a b : ι) :
    ∑ i : Fin 8, ∑ j : Fin 4, ∑ c : Fin 2048,
        (∑ r : Fin 1024, S (1024 * i.1 + r.1) a * A (1024 * i.1 + r.1) (2048 * j.1 + c.1))
          * S (2048 * j.1 + c.1) b
      = ∑ c : Fin 8192, (∑ r : Fin 8192, S r.1 a * A r.1 c.1) * S c.1 b :=
  adjK_eq_adjR_of_real S A hS hA a b

/-- **`adj`, end to end.**  The accumulator that starts at `0` and to which grid point `t` (row tile
`t / 4`, column tile `t % 4`) adds the tile's contribution ends, after the 32 points, with the
whole contraction `Σ_{c<8192} (Σ_{r<8192} S r a * A r c) * S c b`, for real-valued `S` and `A`. -/
theorem adj_acc_eq {ι : Type*} (S : ℕ → ι → EReal) (A : ℕ → ℕ → EReal)
    (hS : ∀ k a, IsReal (S k a)) (hA : ∀ k l, IsReal (A k l)) (a b : ι) :
    acc (fun t => ∑ c : Fin 2048,
        (∑ r : Fin 1024, S (1024 * (t / 4) + r.1) a * A (1024 * (t / 4) + r.1) (2048 * (t % 4) + c.1))
          * S (2048 * (t % 4) + c.1) b) 32
      = ∑ c : Fin 8192, (∑ r : Fin 8192, S r.1 a * A r.1 c.1) * S c.1 b :=
  (acc_grid_div_mod (fun i j => ∑ c : Fin 2048,
      (∑ r : Fin 1024, S (1024 * i + r.1) a * A (1024 * i + r.1) (2048 * j + c.1))
        * S (2048 * j + c.1) b) 8 4).trans
    (adjK_eq_adjR_of_isReal S A hS hA a b)

/-- **`x1`, end to end.**  The accumulator that starts at `0` and to which only the first point of
each grid row (`t % 4 = 0`, row tile `t / 4`) adds the tile's contribution ends, after the 32
points, with the whole contraction `Σ_{k<8192} S k a * X k d`; no finiteness is needed. -/
theorem x1_acc_eq {ι κ : Type*} (S : ℕ → ι → EReal) (X : ℕ → κ → EReal) (a : ι) (d : κ) :
    accIf (fun t => t % 4 = 0)
        (fun t => ∑ r : Fin 1024, S (1024 * (t / 4) + r.1) a * X (1024 * (t / 4) + r.1) d) 32
      = ∑ k : Fin 8192, S k.1 a * X k.1 d :=
  (accIf_mod_grid_div
      (fun i => ∑ r : Fin 1024, S (1024 * i + r.1) a * X (1024 * i + r.1) d) 8 4 (by decide)).trans
    (x1K_eq_x1R S X a d)

/-! ## The same laws for data indexed by `Fin 8192` -/

/-- The accumulator after `n` points depends only on the contributions of the points below `n`. -/
theorem acc_congr {g g' : ℕ → M} {n : ℕ} (h : ∀ t, t < n → g t = g' t) : acc g n = acc g' n := by
  rw [acc_eq_sum_range, acc_eq_sum_range]
  exact Finset.sum_congr rfl fun t ht => h t (Finset.mem_range.1 ht)

/-- The conditional accumulator after `n` points depends only on the contributions of the points
below `n`. -/
theorem accIf_congr (p : ℕ → Prop) [DecidablePred p] {h h' : ℕ → M} {n : ℕ}
    (hh : ∀ t, t < n → h t = h' t) : accIf p h n = accIf p h' n := by
  rw [accIf_eq_acc, accIf_eq_acc]
  exact acc_congr fun t ht => by beta_reduce; rw [hh t ht]

/-- **`x1K = x1R`**, data indexed by `Fin 8192`. -/
theorem x1K_eq_x1R_fin {ι κ : Type*} (S : Fin 8192 → ι → EReal) (X : Fin 8192 → κ → EReal)
    (a : ι) (d : κ) :
    ∑ i : Fin 8, ∑ r : Fin 1024,
        S ⟨1024 * i.1 + r.1, by omega⟩ a * X ⟨1024 * i.1 + r.1, by omega⟩ d
      = ∑ k : Fin 8192, S k a * X k d :=
  sum_8_1024 fun k => S k a * X k d

/-- **`adj` over a commutative semiring**, data indexed by `Fin (n * m)` and `Fin (p * q)`: the law
`adj_tiles` with the same proof. -/
theorem adj_tiles_fin {R : Type*} [CommSemiring R] (n m p q : ℕ) (u : Fin (n * m) → R)
    (v : Fin (p * q) → R) (α : Fin (n * m) → Fin (p * q) → R) :
    ∑ i : Fin n, ∑ j : Fin p, ∑ c : Fin q,
        (∑ r : Fin m, u (tile i r) * α (tile i r) (tile j c)) * v (tile j c)
      = ∑ c : Fin (p * q), (∑ r : Fin (n * m), u r * α r c) * v c :=
  calc ∑ i : Fin n, ∑ j : Fin p, ∑ c : Fin q,
        (∑ r : Fin m, u (tile i r) * α (tile i r) (tile j c)) * v (tile j c)
      = ∑ i : Fin n, ∑ c : Fin (p * q), (∑ r : Fin m, u (tile i r) * α (tile i r) c) * v c :=
        Finset.sum_congr rfl fun i _ =>
          sum_tile p q fun c => (∑ r : Fin m, u (tile i r) * α (tile i r) c) * v c
    _ = ∑ c : Fin (p * q), ∑ i : Fin n, ∑ r : Fin m, u (tile i r) * α (tile i r) c * v c := by
        rw [Finset.sum_comm]; simp only [Finset.sum_mul]
    _ = ∑ c : Fin (p * q), ∑ r : Fin (n * m), u r * α r c * v c :=
        Finset.sum_congr rfl fun c _ => sum_tile n m fun r => u r * α r c * v c
    _ = ∑ c : Fin (p * q), (∑ r : Fin (n * m), u r * α r c) * v c := by
        simp only [Finset.sum_mul]

/-- `adj_tiles_fin` in the extended reals for coercions of real-valued data. -/
theorem adj_tiles_fin_coe (n m p q : ℕ) (u : Fin (n * m) → ℝ) (v : Fin (p * q) → ℝ)
    (α : Fin (n * m) → Fin (p * q) → ℝ) :
    ∑ i : Fin n, ∑ j : Fin p, ∑ c : Fin q,
        (∑ r : Fin m, (u (tile i r) : EReal) * (α (tile i r) (tile j c) : EReal))
          * (v (tile j c) : EReal)
      = ∑ c : Fin (p * q), (∑ r : Fin (n * m), (u r : EReal) * (α r c : EReal)) * (v c : EReal) := by
  have h := congrArg Real.toEReal (adj_tiles_fin n m p q u v α)
  simpa only [coe_sum, EReal.coe_mul] using h

/-- **`adjK = adjR`**, data indexed by `Fin 8192`, every entry of `S` and `A` a real number. -/
theorem adjK_eq_adjR_fin {ι : Type*} (S : Fin 8192 → ι → EReal) (A : Fin 8192 → Fin 8192 → EReal)
    (hS : ∀ k a, IsReal (S k a)) (hA : ∀ k l, IsReal (A k l)) (a b : ι) :
    ∑ i : Fin 8, ∑ j : Fin 4, ∑ c : Fin 2048,
        (∑ r : Fin 1024, S ⟨1024 * i.1 + r.1, by omega⟩ a
            * A ⟨1024 * i.1 + r.1, by omega⟩ ⟨2048 * j.1 + c.1, by omega⟩)
          * S ⟨2048 * j.1 + c.1, by omega⟩ b
      = ∑ c : Fin 8192, (∑ r : Fin 8192, S r a * A r c) * S c b := by
  have hS' : ∀ k a, ∃ x : ℝ, S k a = (x : EReal) := hS
  have hA' : ∀ k l, ∃ x : ℝ, A k l = (x : EReal) := hA
  choose s hs using hS'
  choose α hα using hA'
  simp only [hs, hα]
  exact adj_tiles_fin_coe 8 1024 4 2048 (fun k => s k a) (fun k => s k b) α

/-- Over an `n × m` grid, if point `m*i + j` adds `G i j`, the accumulator ends with
`Σ_{i<n} Σ_{j<m} G i j`. -/
theorem acc_grid_of_eq (n m : ℕ) (g : ℕ → M) (G : Fin n → Fin m → M)
    (hg : ∀ (i : Fin n) (j : Fin m), g (m * i.1 + j.1) = G i j) :
    acc g (n * m) = ∑ i : Fin n, ∑ j : Fin m, G i j := by
  rw [acc_grid]
  exact Finset.sum_congr rfl fun i _ => Finset.sum_congr rfl fun j _ => hg i j

/-- Over an `n × m` grid with `0 < m`, if only the first point of each row adds and point `m*i`
adds `H i`, the accumulator ends with `Σ_{i<n} H i`. -/
theorem accIf_mod_grid_of_eq (n m : ℕ) (hm : 0 < m) (h : ℕ → M) (H : Fin n → M)
    (hh : ∀ i : Fin n, h (m * i.1) = H i) :
    accIf (fun t => t % m = 0) h (n * m) = ∑ i : Fin n, H i := by
  rw [accIf_mod_grid h n m hm]
  exact Finset.sum_congr rfl fun i _ => hh i

end Cert.TileSum
-- ==== Proof.KernelFold.lean ====
/-
  The two accumulators, point by point: a fold that ends at the whole contraction.

  The grid visits the 20 reduction tiles of one batch tile in a row: points 20·q, 20·q + 1, …, 20·q + 19. The first of
  them stores zero and adds its 4096 terms of the contraction, every later one adds its own 4096 terms to what the point
  before left. So after point 20·q + s an accumulator holds zero plus the terms of tiles 0 … s, and after the last point of
  the row it holds the sum over 20 tiles of 4096 terms each, which is the sum over all 20 · 4096 = 81920 features: only
  the grouping of one finite sum changes, which needs nothing of the summands.
-/
import proofs.«155728_j31525059952895_2_alg».proof.Proof.Gen.KernelIdeal.Value
import proofs.«155728_j31525059952895_2_alg».proof.Proof.KernelPieces
import proofs.«155728_j31525059952895_2_alg».proof.Proof.KernelPayloads
import proofs.«155728_j31525059952895_2_alg».proof.Proof.KernelBlocks
import proofs.«155728_j31525059952895_2_alg».proof.Proof.LibTileSum

set_option maxRecDepth 16384

noncomputable section

namespace Cert.KernelSide

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The launch contents of the three big arguments, as matrices -/

/-- The white feature matrix. -/
abbrev aWhite (c : Dev nD) : FVec Ideal S2048x81920 .f32 := m ((c : Thread nD τ).loc main_arg0)
/-- The black feature matrix. -/
abbrev aBlack (c : Dev nD) : FVec Ideal S2048x81920 .f32 := m ((c : Thread nD τ).loc main_arg1)
/-- The feature weights. -/
abbrev aFeatW (c : Dev nD) : FVec Ideal S4x81920 .f32 := m ((c : Thread nD τ).loc main_arg5)

/-! ## Entries of a matrix at natural-number coordinates -/

/-- Entry (a, b) of a matrix for any two naturals: the entry inside the matrix, zero outside. -/
def ext2 {A B : ℕ} (X : FVec Ideal ⟨2, ![A, B]⟩ .f32) (a b : ℕ) : EReal :=
  if h : a < A ∧ b < B then X (ix2 ⟨a, h.1⟩ ⟨b, h.2⟩) else 0

theorem ext2_eq {A B : ℕ} (X : FVec Ideal ⟨2, ![A, B]⟩ .f32) (a b : ℕ) (ha : a < A) (hb : b < B) :
    ext2 X a b = X (ix2 ⟨a, ha⟩ ⟨b, hb⟩) := by
  unfold ext2; rw [dif_pos ⟨ha, hb⟩]

theorem ext2_fin {A B : ℕ} (X : FVec Ideal ⟨2, ![A, B]⟩ .f32) (a : Fin A) (b : Fin B) :
    ext2 X a.val b.val = X (ix2 a b) := ext2_eq X a.val b.val a.isLt b.isLt

/-! ## One point's terms of the contraction -/

/-- The 4096 terms of the feature contraction that grid point n adds, at entry y of the accumulator: point n is batch tile
    n / 20 and reduction tile n % 20. -/
def part (X : FVec Ideal S2048x81920 .f32) (Wt : FVec Ideal S4x81920 .f32) (n : ℕ) (y : S256x4.Idx) : EReal :=
  ∑ k : Fin 4096, ext2 X (256 * (n / 20) + (y 0).val) (4096 * (n % 20) + k.val) * ext2 Wt (y 1).val (4096 * (n % 20) + k.val)

/-- A point's product of its feature block with its block of the transposed weights is that point's terms. -/
theorem step_of (c : Dev nD) (t : Fin cfg0.N) (X : FVec Ideal S2048x81920 .f32) (xb : Vec Ideal S256x4096 .f32)
    (hx : ∀ (a : Fin 256) (b : Fin 4096) (i : Fin 2048) (_ : i.val = 256 * (t.val / 20) + a.val) (j : Fin 81920)
      (_ : j.val = 4096 * (t.val % 20) + b.val), xb (ix2 a b) = X (ix2 i j))
    (a0 : EReal) (p : Fin 256) (j : Fin 4) :
    a0 + ∑ k : Fin 4096, xb (ix2 p k) * (iblk m c 2 t : Vec Ideal S4096x4 .f32) (ix2 k j)
      = a0 + part X (m ((c : Thread nD τ).loc main_arg5)) t.val (ix2 p j) := by
  have hN : t.val < 160 := lt_of_lt_of_eq t.isLt (show cfg0.N = 160 from N_0)
  have hp : p.val < 256 := p.isLt
  refine congrArg (a0 + ·) (Finset.sum_congr rfl fun k _ => ?_)
  have hk : k.val < 4096 := k.isLt
  rw [hx p k ⟨256 * (t.val / 20) + p.val, by omega⟩ rfl ⟨4096 * (t.val % 20) + k.val, by omega⟩ rfl,
    iblk2_apply m c t k j ⟨4096 * (t.val % 20) + k.val, by omega⟩ rfl, V_v0, transpose_ix2_apply]
  show _ = ext2 X (256 * (t.val / 20) + p.val) (4096 * (t.val % 20) + k.val)
    * ext2 (m ((c : Thread nD τ).loc main_arg5)) j.val (4096 * (t.val % 20) + k.val)
  rw [ext2_eq X _ _ (by omega) (by omega), ext2_eq (m ((c : Thread nD τ).loc main_arg5)) _ _ j.isLt (by omega)]

/-- The 20 points of a row of blocks together add the whole contraction: 20 tiles of 4096 terms are all 81920 terms. -/
theorem sum_parts (X : FVec Ideal S2048x81920 .f32) (Wt : FVec Ideal S4x81920 .f32) (q : ℕ) (p : Fin 256) (j : Fin 4)
    (r : Fin 2048) (hr : r.val = 256 * q + p.val) :
    ∑ s ∈ Finset.range 20, part X Wt (20 * q + s) (ix2 p j) = ∑ k : Fin 81920, X (ix2 r k) * Wt (ix2 j k) := by
  have e : ∀ s ∈ Finset.range 20, part X Wt (20 * q + s) (ix2 p j)
      = ∑ k : Fin 4096, (fun kk : ℕ => ext2 X r.val kk * ext2 Wt j.val kk) (4096 * s + k.val) := by
    intro s hs
    have hs' : s < 20 := Finset.mem_range.mp hs
    have d : (20 * q + s) / 20 = q := by omega
    have md : (20 * q + s) % 20 = s := by omega
    unfold part
    rw [d, md, hr]
  rw [Finset.sum_congr rfl e, Finset.sum_range (fun s => ∑ k : Fin 4096, (fun kk : ℕ => ext2 X r.val kk * ext2 Wt j.val kk) (4096 * s + k.val)),
    Cert.TileSum.sum_tile_nat 20 4096 (fun kk : ℕ => ext2 X r.val kk * ext2 Wt j.val kk)]
  show ∑ k : Fin 81920, ext2 X r.val k.val * ext2 Wt j.val k.val = _
  exact Finset.sum_congr rfl fun k _ => by rw [ext2_fin X r k, ext2_fin Wt j k]

/-! ## The white accumulator -/

/-- The white feature block at point t, entry (a, b), is the white feature array at row 256·(t / 20) + a, column 4096·(t % 20) + b. -/
theorem blk0_entry (c : Dev nD) (t : Fin cfg0.N) (a : Fin 256) (b : Fin 4096) (i : Fin 2048)
    (hi : i.val = 256 * (t.val / 20) + a.val) (j : Fin 81920) (hj : j.val = 4096 * (t.val % 20) + b.val) :
    (iblk m c 0 t : Vec Ideal S256x4096 .f32) (ix2 a b) = m ((c : Thread nD τ).loc main_arg0) (ix2 i j) := by
  rw [iblk0_apply m c t a b i hi j hj, V_main_arg0]

/-- What the white accumulator holds after point t: zero plus the terms of the points from the first point of t's row of
    blocks up to t. -/
theorem fold0 (c : Dev nD) (t : Fin cfg0.N) (y : S256x4.Idx) :
    (outsAt0 m c t.val t.isLt).2.1 y
      = Ideal.ofBits .f32 0x00000000#32 + ∑ s ∈ Finset.range (t.val % 20 + 1),
          part (m ((c : Thread nD τ).loc main_arg0)) (m ((c : Thread nD τ).loc main_arg5)) (20 * (t.val / 20) + s) y := by
  have hN : t.val < 160 := lt_of_lt_of_eq t.isLt (show cfg0.N = 160 from N_0)
  rw [Cert.KernelIdeal.Value.soutsAt0_0_eq m c t]
  refine Pipeline.accAt_add_apply (N := cfg0.N) (ι := S256x4.Idx) (β := EReal) _ (Cert.KernelIdeal.Value.scAt0_0 m c)
    (fun _ => Ideal.ofBits .f32 0x00000000#32)
    (part (m ((c : Thread nD τ).loc main_arg0)) (m ((c : Thread nD τ).loc main_arg5))) (20 * (t.val / 20)) 19 ?ha ?hg
    (t.val % 20) (by omega) _ y
  case ha =>
    intro h i
    obtain ⟨p, j, rfl⟩ : ∃ (p : Fin 256) (j : Fin 4), i = ix2 p j := ⟨i 0, i 1, eq_ix2 i⟩
    have h0 : 20 * (t.val / 20) % 20 = 0 := Nat.mul_mod_right _ _
    have h1 : ¬20 * (t.val / 20) % 20 = 19 := by omega
    unfold Cert.KernelIdeal.Value.scAt0_0
    rw [dif_pos h0, dif_neg h1, sout0_A_0_eq]
    refine (pay4_apply (iblk m c 0 ⟨20 * (t.val / 20), h⟩) (iblk m c 2 ⟨20 * (t.val / 20), h⟩) (k0_pay1 (F := Ideal)) p j).trans ?_
    rw [pay1_apply]
    exact step_of m c ⟨20 * (t.val / 20), h⟩ _ _ (blk0_entry m c ⟨20 * (t.val / 20), h⟩) _ p j
  case hg =>
    intro n h acc i hb he
    obtain ⟨p, j, rfl⟩ : ∃ (p : Fin 256) (j : Fin 4), i = ix2 p j := ⟨i 0, i 1, eq_ix2 i⟩
    have h0 : ¬n % 20 = 0 := by omega
    unfold Cert.KernelIdeal.Value.scAt0_0
    rw [dif_neg h0]
    by_cases h1 : n % 20 = 19
    · rw [dif_pos h1, sout0_C_0_eq]
      refine (pay4_apply (iblk m c 0 ⟨n, h⟩) (iblk m c 2 ⟨n, h⟩) _ p j).trans ?_
      exact step_of m c ⟨n, h⟩ _ _ (blk0_entry m c ⟨n, h⟩) _ p j
    · rw [dif_neg h1, sout0_B_0_eq]
      refine (pay4_apply (iblk m c 0 ⟨n, h⟩) (iblk m c 2 ⟨n, h⟩) _ p j).trans ?_
      exact step_of m c ⟨n, h⟩ _ _ (blk0_entry m c ⟨n, h⟩) _ p j

/-- At the last point of a row of blocks the white accumulator holds the whole contraction over the 81920 features. -/
theorem full0 (c : Dev nD) (t : Fin cfg0.N) (h19 : t.val % 20 = 19) (p : Fin 256) (j : Fin 4) (r : Fin 2048)
    (hr : r.val = 256 * (t.val / 20) + p.val) :
    (outsAt0 m c t.val t.isLt).2.1 (ix2 p j)
      = ∑ k : Fin 81920, aWhite m c (ix2 r k) * aFeatW m c (ix2 j k) := by
  rw [fold0, h19, Ideal.ofBits_zero_f32, zero_add]
  exact sum_parts (aWhite m c) (aFeatW m c) (t.val / 20) p j r hr

/-! ## The black accumulator -/

/-- The black feature block at point t, entry (a, b), is the black feature array at row 256·(t / 20) + a, column 4096·(t % 20) + b. -/
theorem blk1_entry (c : Dev nD) (t : Fin cfg0.N) (a : Fin 256) (b : Fin 4096) (i : Fin 2048)
    (hi : i.val = 256 * (t.val / 20) + a.val) (j : Fin 81920) (hj : j.val = 4096 * (t.val % 20) + b.val) :
    (iblk m c 1 t : Vec Ideal S256x4096 .f32) (ix2 a b) = m ((c : Thread nD τ).loc main_arg1) (ix2 i j) := by
  rw [iblk1_apply m c t a b i hi j hj, V_main_arg1]

/-- What the black accumulator holds after point t: zero plus the terms of the points from the first point of t's row of
    blocks up to t. -/
theorem fold1 (c : Dev nD) (t : Fin cfg0.N) (y : S256x4.Idx) :
    (outsAt0 m c t.val t.isLt).2.2 y
      = Ideal.ofBits .f32 0x00000000#32 + ∑ s ∈ Finset.range (t.val % 20 + 1),
          part (m ((c : Thread nD τ).loc main_arg1)) (m ((c : Thread nD τ).loc main_arg5)) (20 * (t.val / 20) + s) y := by
  have hN : t.val < 160 := lt_of_lt_of_eq t.isLt (show cfg0.N = 160 from N_0)
  rw [Cert.KernelIdeal.Value.soutsAt0_1_eq m c t]
  refine Pipeline.accAt_add_apply (N := cfg0.N) (ι := S256x4.Idx) (β := EReal) _ (Cert.KernelIdeal.Value.scAt0_1 m c)
    (fun _ => Ideal.ofBits .f32 0x00000000#32)
    (part (m ((c : Thread nD τ).loc main_arg1)) (m ((c : Thread nD τ).loc main_arg5))) (20 * (t.val / 20)) 19 ?ha ?hg
    (t.val % 20) (by omega) _ y
  case ha =>
    intro h i
    obtain ⟨p, j, rfl⟩ : ∃ (p : Fin 256) (j : Fin 4), i = ix2 p j := ⟨i 0, i 1, eq_ix2 i⟩
    have h0 : 20 * (t.val / 20) % 20 = 0 := Nat.mul_mod_right _ _
    have h1 : ¬20 * (t.val / 20) % 20 = 19 := by omega
    unfold Cert.KernelIdeal.Value.scAt0_1
    rw [dif_pos h0, dif_neg h1, sout0_A_1_eq]
    refine (pay5_apply (iblk m c 1 ⟨20 * (t.val / 20), h⟩) (iblk m c 2 ⟨20 * (t.val / 20), h⟩) (k0_pay2 (F := Ideal)) p j).trans ?_
    rw [pay2_apply]
    exact step_of m c ⟨20 * (t.val / 20), h⟩ _ _ (blk1_entry m c ⟨20 * (t.val / 20), h⟩) _ p j
  case hg =>
    intro n h acc i hb he
    obtain ⟨p, j, rfl⟩ : ∃ (p : Fin 256) (j : Fin 4), i = ix2 p j := ⟨i 0, i 1, eq_ix2 i⟩
    have h0 : ¬n % 20 = 0 := by omega
    unfold Cert.KernelIdeal.Value.scAt0_1
    rw [dif_neg h0]
    by_cases h1 : n % 20 = 19
    · rw [dif_pos h1, sout0_C_1_eq]
      refine (pay5_apply (iblk m c 1 ⟨n, h⟩) (iblk m c 2 ⟨n, h⟩) _ p j).trans ?_
      exact step_of m c ⟨n, h⟩ _ _ (blk1_entry m c ⟨n, h⟩) _ p j
    · rw [dif_neg h1, sout0_B_1_eq]
      refine (pay5_apply (iblk m c 1 ⟨n, h⟩) (iblk m c 2 ⟨n, h⟩) _ p j).trans ?_
      exact step_of m c ⟨n, h⟩ _ _ (blk1_entry m c ⟨n, h⟩) _ p j

/-- At the last point of a row of blocks the black accumulator holds the whole contraction over the 81920 features. -/
theorem full1 (c : Dev nD) (t : Fin cfg0.N) (h19 : t.val % 20 = 19) (p : Fin 256) (j : Fin 4) (r : Fin 2048)
    (hr : r.val = 256 * (t.val / 20) + p.val) :
    (outsAt0 m c t.val t.isLt).2.2 (ix2 p j)
      = ∑ k : Fin 81920, aBlack m c (ix2 r k) * aFeatW m c (ix2 j k) := by
  rw [fold1, h19, Ideal.ofBits_zero_f32, zero_add]
  exact sum_parts (aBlack m c) (aFeatW m c) (t.val / 20) p j r hr

end Cert.KernelSide

end
-- ==== Proof.KernelValue.lean ====
/-
  The kernel's result array is the specified loss column.

  Only the last point of each row of blocks (reduction tile 19) writes the output window back. There the two accumulators
  hold the whole feature contractions of the batch tile's 256 rows, the bias block adds the feature bias, the per-row
  blocks are the rows' turn flags, scores and results, and the small blocks are the weights and biases of the two dense
  layers: the stored block is the specified loss of rows 256·i … 256·i + 255. The eight batch tiles' blocks tile the
  2048 rows, so the array ends holding the specified loss column.
-/
import proofs.«155728_j31525059952895_2_alg».proof.Proof.KernelFold
import proofs.«155728_j31525059952895_2_alg».proof.Proof.Spec

set_option maxRecDepth 16384

noncomputable section

namespace Cert.KernelSide

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specified loss column of the launch contents of the eleven arguments. -/
abbrev target (c : Dev nD) : Buf (Elt Ideal) ((c : Thread nD τ).loc main_v6) :=
  Cert.Spec.loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- At the last point of a row of blocks, the three things the point leaves: the output block is the epilogue of the two
    accumulators as the point leaves them. -/
theorem last_point (c : Dev nD) (t : Fin cfg0.N) (h0 : ¬t.val % 20 = 0) (h19 : t.val % 20 = 19) :
    (outsAt0 m c t.val t.isLt).1
      = k0_pay6 (k0_pay10 (iblk m c 3 t) (outsAt0 m c t.val t.isLt).2.1 (outsAt0 m c t.val t.isLt).2.2 (iblk m c 4 t)) (k0_pay11 (iblk m c 8 t))
          (k0_pay12 (iblk m c 9 t)) (k0_pay13 (iblk m c 3 t) (outsAt0 m c t.val t.isLt).2.1 (outsAt0 m c t.val t.isLt).2.2 (iblk m c 4 t) (iblk m c 7 t))
          (iblk m c 10 t) (iblk m c 11 t) (iblk m c 5 t) (iblk m c 6 t) := by
  have hC := outsAt0_C m c t h0 h19
  rw [out0_C_12_eq, sout0_C_0_eq, sout0_C_1_eq] at hC
  rw [hC]

/-- Row p of the block the last point of batch tile i leaves is the specified loss of row 256·i + p. -/
theorem last_point_row (c : Dev nD) (t : Fin cfg0.N) (h0 : ¬t.val % 20 = 0) (h19 : t.val % 20 = 19) (p : Fin 256)
    (r : Fin 2048) (hr : r.val = 256 * (t.val / 20) + p.val) :
    (outsAt0 m c t.val t.isLt).1 (ix2 p (0 : Fin 1)) = target m c (ix2 r (0 : Fin 1)) := by
  rw [last_point m c t h0 h19]
  refine (epilogue_apply (iblk m c 3 t) (outsAt0 m c t.val t.isLt).2.1 (outsAt0 m c t.val t.isLt).2.2 (iblk m c 4 t) (iblk m c 5 t) (iblk m c 6 t)
    (iblk m c 7 t) (iblk m c 8 t) (iblk m c 9 t) (iblk m c 10 t) (iblk m c 11 t) p
    (Cert.Spec.feat (m ((c : Thread nD τ).loc main_arg0)) (m ((c : Thread nD τ).loc main_arg5)) (m ((c : Thread nD τ).loc main_arg6)) r)
    (Cert.Spec.feat (m ((c : Thread nD τ).loc main_arg1)) (m ((c : Thread nD τ).loc main_arg5)) (m ((c : Thread nD τ).loc main_arg6)) r)
    ((m ((c : Thread nD τ).loc main_arg2)) (ix2 r (0 : Fin 1))) ((m ((c : Thread nD τ).loc main_arg3)) (ix2 r (0 : Fin 1))) ((m ((c : Thread nD τ).loc main_arg4)) (ix2 r (0 : Fin 1)))
    (m ((c : Thread nD τ).loc main_arg7)) (m ((c : Thread nD τ).loc main_arg8)) (m ((c : Thread nD τ).loc main_arg9)) (m ((c : Thread nD τ).loc main_arg10))
    ?hw ?hb ?ht ?hsc ?hrs ?h7 ?h8 ?h9 ?h10 ?h11).trans ?_
  case hw =>
    intro j
    rw [full0 m c t h19 p j r hr, iblk3_apply, V_v3, shapeCast_a_1a_apply]
    rfl
  case hb =>
    intro j
    rw [full1 m c t h19 p j r hr, iblk3_apply, V_v3, shapeCast_a_1a_apply]
    rfl
  case ht => rw [iblk4_apply m c t p 0 r hr, V_main_arg2]
  case hsc => rw [iblk5_apply m c t p 0 r hr, V_main_arg3]
  case hrs => rw [iblk6_apply m c t p 0 r hr, V_main_arg4]
  case h7 =>
    intro n j
    rw [iblk7_apply, V_v1]
    exact slice2_axis1_apply 0 _ _ n j (Fin.castAdd 4 j) (Nat.zero_add _).symm
  case h8 =>
    intro n j
    rw [iblk8_apply, V_v2]
    exact slice2_axis1_apply 4 _ _ n j (Fin.natAdd 4 j) rfl
  case h9 => intro n; rw [iblk9_apply, V_v4, shapeCast_a_1a_apply]
  case h10 => intro n; rw [iblk10_apply, V_main_arg9]
  case h11 => rw [iblk11_apply, V_v5, shapeCast_a_1a_apply]
  rfl

/-! ## From blocks to the array -/

/-- WHAT A FLUSHING POINT WRITES BACK is its block of the specified loss column. -/
theorem flushed_eq (c : Dev nD) (t : Fin cfg0.N) (hf : (cfg0.win 12).flush t = true) :
    (dats m 0 c).flushed 12 t = ((cfg0.win 12).blk t).view.read (Elt Ideal) (target m c) := by
  have hN : t.val < 160 := lt_of_lt_of_eq t.isLt (show cfg0.N = 160 from N_0)
  have h19 : t.val % 20 = 19 := (flush0_12 t).mp hf
  have h0 : ¬t.val % 20 = 0 := by omega
  show (cfg0.win 12).cut (grid0.coords t) ((dats m 0 c).after 12 t) = _
  rw [after0_12]
  funext y
  obtain ⟨p, u, rfl⟩ : ∃ (p : Fin 256) (u : Fin 1), y = ix2 p u := ⟨y 0, y 1, eq_ix2 y⟩
  obtain rfl : u = 0 := Subsingleton.elim _ _
  have hp : p.val < 256 := p.isLt
  show (outsAt0 m c t.val t.isLt).1 (ix2 p (0 : Fin 1)) = target m c (((cfg0.win 12).blk t).view.emb (ix2 p (0 : Fin 1)))
  rw [last_point_row m c t h0 h19 p ⟨256 * (t.val / 20) + p.val, by omega⟩ rfl]
  refine congrArg (target m c) (funext fun ax => Fin.ext ?_)
  match ax with
  | ⟨0, _⟩ => show 256 * (t.val / 20) + p.val = win0_12.index t 0 * 256 + 1 * p.val; rw [(idx12 t).1]; omega
  | ⟨1, _⟩ => show 0 = win0_12.index t 1 * 1 + 1 * 0; rw [(idx12 t).2]

/-- An index of the array is in point t's block iff each coordinate is in the block's range on its axis. -/
theorem mem_blk12 (t : Fin cfg0.N) (i : S2048x1.Idx) :
    i ∈ ((cfg0.win 12).blk t).view.set ↔ ∀ a : Fin 2, win0_12.index t a * S256x1.size a ≤ (i a).val
      ∧ (i a).val < win0_12.index t a * S256x1.size a + S256x1.size a := by
  show i ∈ ((View.whole main_v6).slice (win0_12.rect t)).set ↔ _
  rw [View.set_slice_whole, Rect.mem_set_unit]
  exact Iff.rfl

/-- Every row of the array is in the block some flushing point writes back: row ρ in the block of the last point of batch
    tile ρ / 256. -/
theorem cover (i : S2048x1.Idx) :
    ∃ t : Fin cfg0.N, (cfg0.win 12).flush t = true ∧ i ∈ ((cfg0.win 12).blk t).view.set := by
  have hi0 : (i 0).val < 2048 := (i 0).isLt
  have hi1 : (i 1).val < 1 := (i 1).isLt
  have hlt : 20 * ((i 0).val / 256) + 19 < cfg0.N := by rw [show cfg0.N = 160 from N_0]; omega
  refine ⟨⟨20 * ((i 0).val / 256) + 19, hlt⟩, (flush0_12 _).mpr (by show (20 * ((i 0).val / 256) + 19) % 20 = 19; omega), ?_⟩
  rw [mem_blk12]
  intro a
  have e0 : win0_12.index ⟨20 * ((i 0).val / 256) + 19, hlt⟩ 0 = (20 * ((i 0).val / 256) + 19) / 20 := (idx12 ⟨_, hlt⟩).1
  have e1 : win0_12.index ⟨20 * ((i 0).val / 256) + 19, hlt⟩ 1 = 0 := (idx12 ⟨_, hlt⟩).2
  match a with
  | ⟨0, _⟩ =>
    show win0_12.index _ 0 * 256 ≤ (i 0).val ∧ (i 0).val < win0_12.index _ 0 * 256 + 256
    rw [e0]; omega
  | ⟨1, _⟩ =>
    show win0_12.index _ 1 * 1 ≤ (i 1).val ∧ (i 1).val < win0_12.index _ 1 * 1 + 1
    rw [e1]; omega

/-- THE ARRAY after the run is the specified loss column. -/
theorem final (c : Dev nD) : (dats m 0 c).arrAt 12 cfg0.N = target m c :=
  (dats m 0 c).arrAt_eq_of_cover 12 (target m c) (fun t hf => flushed_eq m c t hf) cover

/-- The run, read: the result array at the specified loss column of the arguments, the arguments unchanged. -/
theorem run : θ_run defs (onTc (τ := τ) (main (F := Ideal))) ⟨m, fun _ => 0, ρ⟩ fun r => ∀ c : Dev nD,
      r.2.mem ((c : Thread nD τ).loc main_v6) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelSide

end
-- ==== Proof.lean ====
/-
  The claim: the kernel and its reference compute the same loss column over the extended reals.

  Both programs evaluate a small network on 2048 rows: two contractions of 81920 features into four numbers each, a
  mixture by the turn flag, two dense layers with clips to [0, 1], and a blended squared-error loss of logistic win
  probabilities. The reference contracts all 81920 features at once and concatenates the two feature vectors before the
  first dense layer; the kernel contracts 4096 features per grid point into two accumulators over 20 points and feeds the
  first dense layer as two half contractions. Over the extended reals the two differ only in how finite sums are
  grouped, so they agree for all inputs: the precondition is not used for the values.

  The three frames are the generated ones (the reference's is its generated run with the result dropped), the
  idealization rewrote nothing, and the algebraic claim puts the kernel's run (its result array at the specified loss
  column) beside the reference's run (its result term, which is the specified loss column of the same arguments).
-/
import proofs.«155728_j31525059952895_2_alg».proof.Defs
import proofs.«155728_j31525059952895_2_alg».proof.Proof.Gen.Kernel
import proofs.«155728_j31525059952895_2_alg».proof.Proof.Gen.Kernel.Skeleton
import proofs.«155728_j31525059952895_2_alg».proof.Proof.Gen.Kernel.Launch
import proofs.«155728_j31525059952895_2_alg».proof.Proof.Gen.Kernel.Points
import proofs.«155728_j31525059952895_2_alg».proof.Proof.Gen.Kernel.Frame
import proofs.«155728_j31525059952895_2_alg».proof.Proof.Gen.KernelIdeal
import proofs.«155728_j31525059952895_2_alg».proof.Proof.Gen.KernelIdeal.Skeleton
import proofs.«155728_j31525059952895_2_alg».proof.Proof.Gen.KernelIdeal.Launch
import proofs.«155728_j31525059952895_2_alg».proof.Proof.Gen.KernelIdeal.Points
import proofs.«155728_j31525059952895_2_alg».proof.Proof.Gen.KernelIdeal.Frame
import proofs.«155728_j31525059952895_2_alg».proof.Proof.Gen.ReferenceIdeal
import proofs.«155728_j31525059952895_2_alg».proof.Proof.Gen.KernelIdeal.Value
import proofs.«155728_j31525059952895_2_alg».proof.Proof.Gen.ReferenceIdeal.Run
import proofs.«155728_j31525059952895_2_alg».proof.Proof.Gen.ReferenceIdeal.Read
import proofs.«155728_j31525059952895_2_alg».proof.Proof.Gen.Pre_finite_inputs
import proofs.«155728_j31525059952895_2_alg».proof.Proof.RefSide
import proofs.«155728_j31525059952895_2_alg».proof.Proof.KernelValue
import Idealize.ShloMosaic.Adequacy
import Idealize.ShloMosaic.Init

noncomputable section

namespace Cert.Proof

open Idealize.ShloMosaic Idealize.SL.Sem Cert.Kernel

/-- Run from memories that agree on the eleven arguments, both idealized programs end with the specified loss column of
    those arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelSide.target m c, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.RefSide.result_eq]
  obtain ⟨a0, a1, a2, a3, a4, a5, a6, a7, a8, a9, a10⟩ := hagree c
  rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
